-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S16x8192 : Shape := ⟨2, ![16, 8192]⟩
abbrev S256x128 : Shape := ⟨2, ![256, 128]⟩
abbrev S1x256 : Shape := ⟨2, ![1, 256]⟩
abbrev S8x8192 : Shape := ⟨2, ![8, 8192]⟩
abbrev S256x8192 : Shape := ⟨2, ![256, 8192]⟩
abbrev S256 : Shape := ⟨1, ![256]⟩
abbrev S256x1 : Shape := ⟨2, ![256, 1]⟩
abbrev S2x8x8192 : Shape := ⟨3, ![2, 8, 8192]⟩
abbrev S2x1x8192 : Shape := ⟨3, ![2, 1, 8192]⟩
abbrev S2x8192 : Shape := ⟨2, ![2, 8192]⟩

abbrev nBuf : Space → Nat
  | .hbm => 25
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S_, .f32⟩
  | .hbm, ⟨8, _⟩ => ⟨S8192x128, .f32⟩
  | .hbm, ⟨9, _⟩ => ⟨S8192x128, .f32⟩
  | .hbm, ⟨10, _⟩ => ⟨S8192x128, .bf16⟩
  | .hbm, ⟨11, _⟩ => ⟨S1x8192, .f32⟩
  | .hbm, ⟨12, _⟩ => ⟨S16x8192, .f32⟩
  | .hbm, ⟨13, _⟩ => ⟨S2x8x8192, .f32⟩
  | .hbm, ⟨14, _⟩ => ⟨S2x1x8192, .f32⟩
  | .hbm, ⟨15, _⟩ => ⟨S2x8192, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S8192x128, .bf16⟩
  | .local _ .vmem, ⟨1, _⟩ => ⟨S1x8192, .f32⟩
  | .local _ .vmem, ⟨2, _⟩ => ⟨S256x128, .f32⟩
  | .local _ .vmem, ⟨3, _⟩ => ⟨S256x128, .f32⟩
  | .local _ .vmem, ⟨4, _⟩ => ⟨S1x256, .f32⟩
  | .local _ .vmem, ⟨5, _⟩ => ⟨S1x256, .f32⟩
  | .local _ .vmem, ⟨6, _⟩ => ⟨S8x8192, .f32⟩
  | .local _ .vmem, ⟨7, _⟩ => ⟨S8x8192, .f32⟩
  | .local _ .vmem, ⟨8, _⟩ => ⟨S1x8192, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v30 : BitVec 1 := Scalar.cmpi .eq arg1 c15_i32
  let v31 : BitVec 32 := Scalar.extui v30
  let c0_i32_16 : BitVec 32 := 0#32
  let v32 : BitVec 1 := Scalar.cmpi .ne v31 c0_i32_16
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S_S8192x128 : S_.BroadcastsInDim S8192x128 (![] : Fin 0 → Fin S8192x128.rank)
  bitsLt_bf16_f32 : FTy.bits .bf16 < FTy.bits .f32
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S256x128_S256x128_0_0 : ∀ a, (![0, 0] : Fin 2 → Nat) a + S256x128.size a ≤ S256x128.size a
  h_S256x128 : 0 < S256x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S256x128_S256 : S256x128.Reduces [1] S256
  shapeCasts_S256_S256x1 : S256.ShapeCasts S256x1
  broadcasts_S256x1_S256x8192 : S256x1.Broadcasts S256x8192
  broadcasts_S1x8192_S256x8192 : S1x8192.Broadcasts S256x8192
  reduces_S256x8192_S256 : S256x8192.Reduces [1] S256
  transposes_S256x1_p1_0_S1x256 : S256x1.Transposes [1, 0] S1x256
  inb_S1x256_S1x256_0_0 : ∀ a, (![0, 0] : Fin 2 → Nat) a + S1x256.size a ≤ S1x256.size a
  h_S1x256 : 0 < S1x256.numel
  reduces_S256x8192_S8192 : S256x8192.Reduces [0] S8192
  shapeCasts_S8192_S1x8192 : S8192.ShapeCasts S1x8192
  broadcasts_S1x8192_S8x8192 : S1x8192.Broadcasts S8x8192
  inb_S8x8192_S8x8192_0_0 : ∀ a, (![0, 0] : Fin 2 → Nat) a + S8x8192.size a ≤ S8x8192.size a
  h_S8x8192 : 0 < S8x8192.numel
  shapeCasts_S16x8192_S2x8x8192 : S16x8192.ShapeCasts S2x8x8192
  slices_S2x8x8192_S2x1x8192_0_0_0 : S2x8x8192.Slices ![0, 0, 0] S2x1x8192
  shapeCasts_S2x1x8192_S2x8192 : S2x1x8192.ShapeCasts S2x8192
  reducesTo_S2x8192_S8192_d0 : S2x8192.ReducesTo [0] S8192
  reducesTo_S1x8192_S_d0_1 : S1x8192.ReducesTo [0, 1] S_
  reducesTo_S8192_S_d0 : S8192.ReducesTo [0] S_
  dot_S256x128_S8192x128_S256x8192_1_1_0_0_n_n_wf : DotDims.WF S256x128 S8192x128 S256x8192 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .bf16 = 32 ∨ (Rect.block (s := S8192x128) S8192x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S8192x128.size a
  hwx0_2 : ∀ i : grid0.Coords, EltTy.bits .f32 = 32 ∨ (Rect.block (s := S8192x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .f32 = 32 ∨ (Rect.block (s := S1x8192) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x8192.size a ≤ S16x8192.size a
  hwx0_4 : ∀ i : grid0.Coords, EltTy.bits .f32 = 32 ∨ (Rect.block (s := S16x8192) S8x8192.size (cc0_transform_4 i) (hinb0_4 i)).WholeWords (EltTy.packing .f32)

variable [Facts₀]

def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf

abbrev win0_0 : Pipeline.Window sig grid0 :=
  Pipeline.Window.ofSpec (Memref.whole main_v6) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S8x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S128x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d0 : S8192x8192.ReducesTo [0] S8192
  reducesTo_S8192x8192_S8192_d1 : S8192x8192.ReducesTo [1] S8192
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Pieces.lean ====
/-
  What one run of the body leaves behind, case by case, as plain terms of what it loaded. The body always stores the
  clamped row minima of its block of `Y` into the first output and the updated running minimum into the scratch row;
  at the first of sixteen steps the running minimum restarts from +inf, and at the last the clamped scratch row is
  copied to all eight rows of the second output.
-/
import proofs.«143313_j43052752175176_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A first step: the first output holds the clamped row minima of the block. -/
theorem out3_A (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S256x128 .f32) (harg4 : arg4.IsWhole) (arg5 : Memref sig .tc .vmem S1x256 .f32) (harg5 : arg5.IsWhole) (arg6 : Memref sig .tc .vmem S8x8192 .f32) (harg6 : arg6.IsWhole) (arg7 : Memref sig .tc .vmem S1x8192 .f32) (harg7 : arg7.IsWhole) (hc0 : cond0_0 i) (hc1 : ¬cond0_1 i)
    (x0 : Vec F S8192x128 .bf16) (x1 : Vec F S1x8192 .f32) (x2 : Vec F S256x128 .f32) :
    out0_A_3 c i arg2 harg2 arg3 harg3 arg4 harg4 arg5 harg5 arg6 harg6 arg7 harg7 hc0 hc1 x0 x1 x2 = k0_pay3 x2 x0 x1 := by
  unfold out0_A_3
  rw [View.read_writes_eq_canon _ _ _ (cover0_A_3 c i arg2 harg2 arg3 harg3 arg4 harg4 arg5 harg5 arg6 harg6 arg7 harg7 hc0 hc1 x0 x1 x2)]
  unfold kernelRun0_A
  dsimp only
  rw [View.canon_unit_zero hz]
  simp only [View.readAt_eq_ld, harg2.read_unread, harg3.read_unread, harg4.read_unread, harg7.read_unread, View.ld_unit_zero (S := S256x128) hz, View.ld_unit_zero (S := S8192x128) hz, View.ld_unit_zero (S := S1x8192) hz]

/-- A first step: the scratch row restarts from +inf and takes in the block's column minima. -/
theorem scr_A (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S256x128 .f32) (harg4 : arg4.IsWhole) (arg5 : Memref sig .tc .vmem S1x256 .f32) (harg5 : arg5.IsWhole) (arg6 : Memref sig .tc .vmem S8x8192 .f32) (harg6 : arg6.IsWhole) (arg7 : Memref sig .tc .vmem S1x8192 .f32) (harg7 : arg7.IsWhole) (hc0 : cond0_0 i) (hc1 : ¬cond0_1 i)
    (x0 : Vec F S8192x128 .bf16) (x1 : Vec F S1x8192 .f32) (x2 : Vec F S256x128 .f32) :
    sout0_A_0 c i arg2 harg2 arg3 harg3 arg4 harg4 arg5 harg5 arg6 harg6 arg7 harg7 hc0 hc1 x0 x1 x2 = k0_pay4 x2 x0 x1 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S1x8192) hz, View.readCov_unit_zero (S := S1x8192) _ hz]
  simp only [View.readAt_eq_ld, harg2.read_unread, harg3.read_unread, harg4.read_unread, harg7.read_unread, View.ld_unit_zero (S := S256x128) hz, View.ld_unit_zero (S := S8192x128) hz, View.ld_unit_zero (S := S1x8192) hz]

/-- A middle step: the first output holds the clamped row minima of the block. -/
theorem out3_B (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S256x128 .f32) (harg4 : arg4.IsWhole) (arg5 : Memref sig .tc .vmem S1x256 .f32) (harg5 : arg5.IsWhole) (arg6 : Memref sig .tc .vmem S8x8192 .f32) (harg6 : arg6.IsWhole) (arg7 : Memref sig .tc .vmem S1x8192 .f32) (harg7 : arg7.IsWhole) (hc0 : ¬cond0_0 i) (hc1 : ¬cond0_1 i)
    (x0 : Vec F S8192x128 .bf16) (x1 : Vec F S1x8192 .f32) (x2 : Vec F S256x128 .f32) (xs0 : Vec F S1x8192 .f32) :
    out0_B_3 c i arg2 harg2 arg3 harg3 arg4 harg4 arg5 harg5 arg6 harg6 arg7 harg7 hc0 hc1 x0 x1 x2 xs0 = k0_pay3 x2 x0 x1 := by
  unfold out0_B_3
  rw [View.read_writes_eq_canon _ _ _ (cover0_B_3 c i arg2 harg2 arg3 harg3 arg4 harg4 arg5 harg5 arg6 harg6 arg7 harg7 hc0 hc1 x0 x1 x2 xs0)]
  unfold kernelRun0_B
  dsimp only
  rw [View.canon_unit_zero hz]
  simp only [View.readAt_eq_ld, harg2.read_unread, harg3.read_unread, harg4.read_unread, harg7.read_unread, View.ld_unit_zero (S := S256x128) hz, View.ld_unit_zero (S := S8192x128) hz, View.ld_unit_zero (S := S1x8192) hz]

/-- A middle step: the scratch row takes in the block's column minima. -/
theorem scr_B (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S256x128 .f32) (harg4 : arg4.IsWhole) (arg5 : Memref sig .tc .vmem S1x256 .f32) (harg5 : arg5.IsWhole) (arg6 : Memref sig .tc .vmem S8x8192 .f32) (harg6 : arg6.IsWhole) (arg7 : Memref sig .tc .vmem S1x8192 .f32) (harg7 : arg7.IsWhole) (hc0 : ¬cond0_0 i) (hc1 : ¬cond0_1 i)
    (x0 : Vec F S8192x128 .bf16) (x1 : Vec F S1x8192 .f32) (x2 : Vec F S256x128 .f32) (xs0 : Vec F S1x8192 .f32) :
    sout0_B_0 c i arg2 harg2 arg3 harg3 arg4 harg4 arg5 harg5 arg6 harg6 arg7 harg7 hc0 hc1 x0 x1 x2 xs0 = k0_pay4 x2 x0 x1 xs0 := by
  unfold sout0_B_0
  rw [View.read_writes_eq_canon _ _ _ (scover0_B_0 c i arg2 harg2 arg3 harg3 arg4 harg4 arg5 harg5 arg6 harg6 arg7 harg7 hc0 hc1 x0 x1 x2 xs0)]
  unfold kernelRun0_B
  dsimp only
  rw [View.canon_unit_zero hz]
  simp only [View.readAt_eq_ld, harg2.read_unread, harg3.read_unread, harg4.read_unread, harg7.read_unread, View.ld_unit_zero (S := S256x128) hz, View.ld_unit_zero (S := S8192x128) hz, View.ld_unit_zero (S := S1x8192) hz]

/-- A last step: the first output holds the clamped row minima of the block. -/
theorem out3_C (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S256x128 .f32) (harg4 : arg4.IsWhole) (arg5 : Memref sig .tc .vmem S1x256 .f32) (harg5 : arg5.IsWhole) (arg6 : Memref sig .tc .vmem S8x8192 .f32) (harg6 : arg6.IsWhole) (arg7 : Memref sig .tc .vmem S1x8192 .f32) (harg7 : arg7.IsWhole) (hc0 : ¬cond0_0 i) (hc1 : cond0_1 i)
    (x0 : Vec F S8192x128 .bf16) (x1 : Vec F S1x8192 .f32) (x2 : Vec F S256x128 .f32) (xs0 : Vec F S1x8192 .f32) :
    out0_C_3 c i arg2 harg2 arg3 harg3 arg4 harg4 arg5 harg5 arg6 harg6 arg7 harg7 hc0 hc1 x0 x1 x2 xs0 = k0_pay3 x2 x0 x1 := by
  unfold out0_C_3
  rw [View.read_writes_eq_canon _ _ _ (cover0_C_3 c i arg2 harg2 arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg2.read_unread, harg3.read_unread, harg4.read_unread, harg7.read_unread, View.ld_unit_zero (S := S256x128) hz, View.ld_unit_zero (S := S8192x128) hz, View.ld_unit_zero (S := S1x8192) hz]

/-- A last step: the scratch row takes in the block's column minima. -/
theorem scr_C (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S256x128 .f32) (harg4 : arg4.IsWhole) (arg5 : Memref sig .tc .vmem S1x256 .f32) (harg5 : arg5.IsWhole) (arg6 : Memref sig .tc .vmem S8x8192 .f32) (harg6 : arg6.IsWhole) (arg7 : Memref sig .tc .vmem S1x8192 .f32) (harg7 : arg7.IsWhole) (hc0 : ¬cond0_0 i) (hc1 : cond0_1 i)
    (x0 : Vec F S8192x128 .bf16) (x1 : Vec F S1x8192 .f32) (x2 : Vec F S256x128 .f32) (xs0 : Vec F S1x8192 .f32) :
    sout0_C_0 c i arg2 harg2 arg3 harg3 arg4 harg4 arg5 harg5 arg6 harg6 arg7 harg7 hc0 hc1 x0 x1 x2 xs0 = k0_pay4 x2 x0 x1 xs0 := by
  unfold sout0_C_0
  rw [View.read_writes_eq_canon _ _ _ (scover0_C_0 c i arg2 harg2 arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg2.read_unread, harg3.read_unread, harg4.read_unread, harg7.read_unread, View.ld_unit_zero (S := S256x128) hz, View.ld_unit_zero (S := S8192x128) hz, View.ld_unit_zero (S := S1x8192) hz]

/-- A last step: the second output holds the clamped scratch row, on each of its eight rows. -/
theorem out4_C (c : Dev nD) (i : grid0.Coords) (arg2 : Memref sig .tc .vmem S8192x128 .bf16) (harg2 : arg2.IsWhole) (arg3 : Memref sig .tc .vmem S1x8192 .f32) (harg3 : arg3.IsWhole) (arg4 : Memref sig .tc .vmem S256x128 .f32) (harg4 : arg4.IsWhole) (arg5 : Memref sig .tc .vmem S1x256 .f32) (harg5 : arg5.IsWhole) (arg6 : Memref sig .tc .vmem S8x8192 .f32) (harg6 : arg6.IsWhole) (arg7 : Memref sig .tc .vmem S1x8192 .f32) (harg7 : arg7.IsWhole) (hc0 : ¬cond0_0 i) (hc1 : cond0_1 i)
    (x0 : Vec F S8192x128 .bf16) (x1 : Vec F S1x8192 .f32) (x2 : Vec F S256x128 .f32) (xs0 : Vec F S1x8192 .f32) :
    out0_C_4 c i arg2 harg2 arg3 harg3 arg4 harg4 arg5 harg5 arg6 harg6 arg7 harg7 hc0 hc1 x0 x1 x2 xs0 = k0_pay5 (k0_pay4 x2 x0 x1 xs0) := by
  unfold out0_C_4
  rw [View.read_writes_eq_canon _ _ _ (cover0_C_4 c i arg2 harg2 arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1x8192) _ hz]
  simp only [View.readAt_eq_ld, harg2.read_unread, harg3.read_unread, harg4.read_unread, harg7.read_unread, View.ld_unit_zero (S := S256x128) hz, View.ld_unit_zero (S := S8192x128) hz, View.ld_unit_zero (S := S1x8192) hz]

end Cert.KernelIdeal.Pieces

end
-- ==== Proof.LibMinReduce.lean ====
/-
  Reductions of a rank-2 array along one axis, read at an index over the extended reals.

  A sum along axis 1 at row `p` is the sum over the columns; a minimum started from +inf along axis 1 at row `p` (or
  along axis 0 at column `q`) is the infimum over the columns (the rows) — for the device's vector reduction and for the
  host's reduce with a minimum body alike. Generic in the two extents.
-/
import Idealize.ShloMosaic.Lib.ValueIdx
import Idealize.ShloMosaic.PureOps.Ideal.Laws
import Mathlib

noncomputable section

open scoped BigOperators

namespace Cert.LibMinReduce

open Idealize.ShloMosaic Idealize.ShloMosaic.ValueIdx

variable {φ : FTy}

/-- The +inf word of f32 is the top extended real. -/
theorem ofBits_inf_f32 : Ideal.ofBits .f32 0x7F800000#32 = (⊤ : EReal) := by
  simp [Ideal.ofBits, Ideal.ieee]

/-- A fold of `min` started at the top element is the infimum. -/
theorem fold_min_top {ι : Type} (s : Finset ι) (f : ι → EReal) : s.fold min ⊤ f = s.inf f := by
  classical
  induction s using Finset.induction_on with
  | empty => simp
  | insert a s ha ih => rw [Finset.fold_insert ha, Finset.inf_insert, ih]

/-- The device's minimum reduction over one axis: the fold of `min` from the accumulator's value over that axis. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- Row `p` with column `k` put back is `(p, k)`. -/
theorem lift_axis1 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- Column `q` with row `k` put back is `(k, q)`. -/
theorem lift_axis0 {a b : ℕ} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- The device's sum along axis 1, at row `p`. -/
theorem rowSum_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (by show ∑ k : Fin b, src (h.lift (ix1 p) k) = _
        exact Finset.sum_congr rfl fun k _ => congrArg src (lift_axis1 h p k))

/-- The device's minimum from +inf along axis 1, at row `p`: the infimum over the columns. -/
theorem rowMin_apply {a b : ℕ} (src : FVec Ideal ⟨2, ![a, b]⟩ .f32)
    (h : (⟨2, ![a, b]⟩ : Shape).Reduces [1] (⟨1, ![a]⟩ : Shape)) (hφ : FKind.Formats .f32)
    (hacc : (0x7F800000#32 : BitVec 32) = FKind.minimumf.neutral .f32 hφ) (p : Fin a) :
    multiReduction .minimumf [1] ⟨1, ![a]⟩ src 0x7F800000#32 h hφ hacc (ix1 p)
      = (Finset.univ : Finset (Fin b)).inf fun k => src (ix2 p k) := by
  refine (multiReduction_minimumf_single src _ h hφ hacc (ix1 p)).trans ?_
  rw [ofBits_inf_f32]
  refine Eq.trans ?_ (fold_min_top (Finset.univ : Finset (Fin b)) fun k => src (ix2 p k))
  show Finset.fold min ⊤ (fun k : Fin b => src (h.lift (ix1 p) k)) Finset.univ = _
  exact congrArg (fun f => Finset.fold min (⊤ : EReal) f (Finset.univ : Finset (Fin b)))
    (funext fun k => congrArg src (lift_axis1 h p k))

/-- The device's minimum from +inf along axis 0, at column `q`: the infimum over the rows. -/
theorem colMin_apply {a b : ℕ} (src : FVec Ideal ⟨2, ![a, b]⟩ .f32)
    (h : (⟨2, ![a, b]⟩ : Shape).Reduces [0] (⟨1, ![b]⟩ : Shape)) (hφ : FKind.Formats .f32)
    (hacc : (0x7F800000#32 : BitVec 32) = FKind.minimumf.neutral .f32 hφ) (q : Fin b) :
    multiReduction .minimumf [0] ⟨1, ![b]⟩ src 0x7F800000#32 h hφ hacc (ix1 q)
      = (Finset.univ : Finset (Fin a)).inf fun k => src (ix2 k q) := by
  refine (multiReduction_minimumf_single src _ h hφ hacc (ix1 q)).trans ?_
  rw [ofBits_inf_f32]
  refine Eq.trans ?_ (fold_min_top (Finset.univ : Finset (Fin a)) fun k => src (ix2 k q))
  show Finset.fold min ⊤ (fun k : Fin a => src (h.lift (ix1 q) k)) Finset.univ = _
  exact congrArg (fun f => Finset.fold min (⊤ : EReal) f (Finset.univ : Finset (Fin a)))
    (funext fun k => congrArg src (lift_axis0 h q k))

/-- The host's reduce with a minimum body from +inf along axis 0, at column `q`: the infimum over the rows. -/
theorem hostColMin_apply {a b : ℕ} (x : FVec Ideal ⟨2, ![a, b]⟩ .f32)
    (h' : (⟨2, ![a, b]⟩ : Shape).ReducesTo [0] (⟨1, ![b]⟩ : Shape)) (h : (⟨2, ![a, b]⟩ : Shape).Reduces [0] (⟨1, ![b]⟩ : Shape))
    (hu : 0 < (⟨0, ![]⟩ : Shape).numel) (q : Fin b) :
    Host.reduce FloatOps.minimumf x (constant (F := Ideal) (⟨0, ![]⟩ : Shape) .f32 0x7F800000#32) h' hu (ix1 q)
      = (Finset.univ : Finset (Fin a)).inf fun k => x (ix2 k q) := by
  rw [Host.reduce_eq_fold_single FloatOps.minimumf x _ h' h hu]
  show Finset.fold min (Ideal.ofBits .f32 0x7F800000#32) (fun k : Fin a => x (h.lift (ix1 q) k)) Finset.univ = _
  rw [ofBits_inf_f32]
  refine Eq.trans ?_ (fold_min_top (Finset.univ : Finset (Fin a)) fun k => x (ix2 k q))
  exact congrArg (fun f => Finset.fold min (⊤ : EReal) f (Finset.univ : Finset (Fin a)))
    (funext fun k => congrArg x (lift_axis0 h q k))

/-- The host's reduce with a minimum body from +inf along axis 1, at row `p`: the infimum over the columns. -/
theorem hostRowMin_apply {a b : ℕ} (x : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.minimumf x (constant (F := Ideal) (⟨0, ![]⟩ : Shape) .f32 0x7F800000#32) h' hu (ix1 p)
      = (Finset.univ : Finset (Fin b)).inf fun k => x (ix2 p k) := by
  rw [Host.reduce_eq_fold_single FloatOps.minimumf x _ h' h hu]
  show Finset.fold min (Ideal.ofBits .f32 0x7F800000#32) (fun k : Fin b => x (h.lift (ix1 p) k)) Finset.univ = _
  rw [ofBits_inf_f32]
  refine Eq.trans ?_ (fold_min_top (Finset.univ : Finset (Fin b)) fun k => x (ix2 p k))
  exact congrArg (fun f => Finset.fold min (⊤ : EReal) f (Finset.univ : Finset (Fin b)))
    (funext fun k => congrArg x (lift_axis1 h p k))

/-- The host's sum along axis 1 from an initial value, at row `p`: the initial value plus the sum over the columns. -/
theorem hostRowSum_apply {a b : ℕ} (x : FVec Ideal ⟨2, ![a, b]⟩ φ) (init : FVec Ideal (⟨0, ![]⟩ : Shape) φ)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin b, x (ix2 p k) := by
  simp only [Host.reduceAdd, Ideal.hostReduceAdd_def]
  rw [Ideal.hostReduceAdd_single h' h]
  refine congrArg (_ + ·) ?_
  show ∑ k : Fin b, x (h.lift (ix1 p) k) = _
  exact Finset.sum_congr rfl fun k _ => congrArg x (lift_axis1 h p k)

/-- The host's sum over every axis from an initial value: the initial value plus the sum over all indices. -/
theorem hostSumAll_apply {s : Shape} {axes : List (Fin s.rank)} (x : FVec Ideal s φ) (init : FVec Ideal (⟨0, ![]⟩ : Shape) φ)
    (h' : s.ReducesTo axes (⟨0, ![]⟩ : Shape)) (hu : 0 < (⟨0, ![]⟩ : Shape).numel) (i : (⟨0, ![]⟩ : Shape).Idx) :
    Host.reduceAdd x init h' hu i = init (Shape.Idx.first hu) + ∑ j : s.Idx, x j := by
  simp only [Host.reduceAdd, Ideal.hostReduceAdd_def]
  exact Ideal.hostReduceAdd_total h' (fun b => b.elim0) x _ i

end Cert.LibMinReduce

end
-- ==== Proof.LibRowsByRows.lean ====
/-
  A matrix product in which BOTH operands are contracted along their second axis: the [M, K] operand's row p against
  the [C, K] operand's row q, that is  A · Bᵀ. Read at the extended reals, into an accumulator of zeros, the element
  (p, q) of the result is the plain sum  ∑ k, A (p, k) * B (q, k).

  The lemma is stated for any dimension record of those shapes whose operand indices are the expected ones — four
  facts about the record (`hl0 … hr1`) that a program's literal record proves by unfolding; nothing else of the record
  is used. The one contracted axis is re-indexed by its coordinate `k : Fin K`.
-/
import Idealize.ShloMosaic.Lib.ValueIdx
import Idealize.ShloMosaic.PureOps.Ideal.Laws

noncomputable section

open scoped BigOperators

namespace RowsByRows

open Idealize.ShloMosaic Idealize.ShloMosaic.ValueIdx

/-- Element (p, q) of  A · Bᵀ  accumulated into zeros is  ∑ k, A (p, k) * B (q, k). -/
theorem matmul_zero_apply {M K C : Nat} {φ₁ φ₂ : FTy} (D : DotDims ⟨2, ![M, K]⟩ ⟨2, ![C, K]⟩ ⟨2, ![M, C]⟩)
    (hr : D.contr.rank = 1) (hs : D.contr.size ⟨0, by omega⟩ = K)
    (hl0 : ∀ (j : (⟨2, ![M, C]⟩ : Shape).Idx) (k : D.contr.Idx), (D.lhsIdx j k 0).val = (j 0).val)
    (hl1 : ∀ (j : (⟨2, ![M, C]⟩ : Shape).Idx) (k : D.contr.Idx), (D.lhsIdx j k 1).val = (k ⟨0, by omega⟩).val)
    (hr0 : ∀ (j : (⟨2, ![M, C]⟩ : Shape).Idx) (k : D.contr.Idx), (D.rhsIdx j k 0).val = (j 1).val)
    (hr1 : ∀ (j : (⟨2, ![M, C]⟩ : Shape).Idx) (k : D.contr.Idx), (D.rhsIdx j k 1).val = (k ⟨0, by omega⟩).val)
    (prec : Option ContractPrecision) (A : FVec Ideal ⟨2, ![M, K]⟩ φ₁) (B : FVec Ideal ⟨2, ![C, K]⟩ φ₂)
    (p : Fin M) (q : Fin C) :
    FloatOps.matmul D prec A B (constant ⟨2, ![M, C]⟩ .f32 0x00000000#32) (ix2 p q) = ∑ k : Fin K, A (ix2 p k) * B (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end RowsByRows

end
-- ==== Proof.LibColumnCast.lean ====
/-
  A vector recast as a one-column matrix, read at an index. A row sum kept as a column (a sum over the last axis with
  the axis kept) is stored by recasting the vector of `a` sums to shape `a × 1`; row-major order puts entry `p` of the
  vector at `(p, 0)`.
-/
import Idealize.ShloMosaic.Lib.ValueIdx
import Idealize.ShloMosaic.Lib.Pipeline.Value

namespace Cert.LibColumnCast

open Idealize.ShloMosaic Idealize.ShloMosaic.ValueIdx

/-- A vector of `a` entries recast as an `a × 1` column reads, at `(p, z)`, the vector's entry `p`, whatever the
    unit coordinate `z`: both sit at position `p` in row-major order. Generic in the extent and the element type. -/
theorem column_cast {a : ℕ} {α : Type} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Cert.LibColumnCast
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.Payloads.lean ====
/-
  The body's arithmetic read entry by entry over the extended reals. For a block of 256 rows of `Y` (`v3`), the doubled
  rows of `X` (`v5`) and the row of squared lengths of `X` (`v11`), the entry (p, q) of the distance block is
  |Y_p|² + |X_q|² − Σ_d Y_p,d · (2 X)_q,d; the first output's entry p is the least entry of row p clamped at zero, the
  scratch row's entry q is the lesser of what it held and the least entry of column q, and the second output repeats the
  clamped scratch row on each of its rows.
-/
import proofs.«143313_j43052752175176_2_alg».proof.Proof.Gen.KernelIdeal.Skeleton
import proofs.«143313_j43052752175176_2_alg».proof.Proof.LibMinReduce
import proofs.«143313_j43052752175176_2_alg».proof.Proof.LibRowsByRows
import proofs.«143313_j43052752175176_2_alg».proof.Proof.LibColumnCast
import proofs.«143313_j43052752175176_2_alg».proof.Proof.LibMatOps
import Idealize.ShloMosaic.Lib.ValueLayout
import Idealize.ShloMosaic.Lib.Pipeline.Value

noncomputable section

open scoped BigOperators

namespace Cert.KernelIdeal.Payloads

open Cert.KernelIdeal Cert.KernelIdeal.Gen Idealize.ShloMosaic Idealize.ShloMosaic.ValueIdx Idealize.ShloMosaic.TcCoe

/-- The dimension numbers of the body's product: both operands contracted along their second axis. -/
abbrev DD : DotDims S256x128 S8192x128 S256x8192 := dot_S256x128_S8192x128_S256x8192_1_1_0_0_n_n

theorem dd_l0 (j : S256x8192.Idx) (k : DD.contr.Idx) : (DD.lhsIdx j k 0).val = (j 0).val := by
  unfold DotDims.lhsIdx
  rw [dif_neg (show ¬(0 : Fin S256x128.rank) ∈ DD.lhsBatch by decide), dif_pos (show (0 : Fin S256x128.rank) ∈ DD.lhsNonContracting by decide)]
  rfl
theorem dd_l1 (j : S256x8192.Idx) (k : DD.contr.Idx) : (DD.lhsIdx j k 1).val = (k ⟨0, by decide⟩).val :=
  DD.lhsIdx_val_of_single rfl j k
theorem dd_r0 (j : S256x8192.Idx) (k : DD.contr.Idx) : (DD.rhsIdx j k 0).val = (j 1).val := by
  unfold DotDims.rhsIdx
  rw [dif_neg (show ¬(0 : Fin S8192x128.rank) ∈ DD.rhsBatch by decide), dif_pos (show (0 : Fin S8192x128.rank) ∈ DD.rhsNonContracting by decide)]
  rfl
theorem dd_r1 (j : S256x8192.Idx) (k : DD.contr.Idx) : (DD.rhsIdx j k 1).val = (k ⟨0, by decide⟩).val :=
  DD.rhsIdx_val_of_single rfl j k

variable (v3 : FVec Ideal S256x128 .f32) (v5 : FVec Ideal S8192x128 .bf16) (v11 : FVec Ideal S1x8192 .f32)

/-- The distance block's entry (p, q). -/
def dist (p : Fin 256) (q : Fin 8192) : EReal :=
  ((∑ d : Fin 128, v3 (ix2 p d) * v3 (ix2 p d)) + v11 (ix2 (0 : Fin 1) q)) - ∑ d : Fin 128, v3 (ix2 p d) * v5 (ix2 q d)

theorem pay2_apply (p : Fin 256) (q : Fin 8192) : k0_pay2 (F := Ideal) v3 v5 v11 (ix2 p q) = dist v3 v5 v11 p q := by
  unfold k0_pay2 dist
  dsimp only
  rw [subf_apply, addf_apply]
  refine congrArg₂ (· - ·) (congrArg₂ (· + ·) ?_ ?_) ?_
  · refine (Cert.MatOps.broadcastTo_a1_ab_apply _ _ p q).trans ?_
    refine (Cert.LibColumnCast.column_cast _ _ p 0).trans ?_
    exact Cert.LibMinReduce.rowSum_apply _ _ _ _ _ p
  · refine (broadcastTo_1b_ab_apply _ _ p q).trans ?_
    exact congrFun (shapeCast_self v11 _) _
  · refine (RowsByRows.matmul_zero_apply DD rfl rfl dd_l0 dd_l1 dd_r0 dd_r1 none _ _ p q).trans ?_
    refine Finset.sum_congr rfl fun k _ => ?_
    exact congrArg (v3 (ix2 p k) * ·) (congrFun (shapeCast_self v5 _) _)

/-- The first output's entry p: the least entry of row p of the distance block, clamped at zero. -/
theorem pay3_apply (p : Fin 256) :
    k0_pay3 (F := Ideal) v3 v5 v11 (ix2 (0 : Fin 1) p) = max ((Finset.univ : Finset (Fin 8192)).inf fun q => dist v3 v5 v11 p q) 0 := by
  unfold k0_pay3
  dsimp only
  refine (transpose_ix2_apply _ _ (0 : Fin 1) p).trans ?_
  rw [maximumf_apply, broadcast_apply]
  refine congrArg₂ max ?_ Ideal.ofBits_zero_f32
  refine (Cert.LibColumnCast.column_cast _ _ p 0).trans ?_
  refine (Cert.LibMinReduce.rowMin_apply _ _ _ _ p).trans ?_
  exact congrArg (Finset.univ : Finset (Fin 8192)).inf (funext fun q => pay2_apply v3 v5 v11 p q)

/-- The scratch row's entry q: the lesser of what it held and the least entry of column q of the distance block. -/
theorem pay4_apply (v25 : FVec Ideal S1x8192 .f32) (q : Fin 8192) :
    k0_pay4 (F := Ideal) v3 v5 v11 v25 (ix2 (0 : Fin 1) q)
      = min (v25 (ix2 (0 : Fin 1) q)) ((Finset.univ : Finset (Fin 256)).inf fun p => dist v3 v5 v11 p q) := by
  unfold k0_pay4
  dsimp only
  rw [shapeCast_self, minimumf_apply]
  refine congrArg (min (v25 (ix2 (0 : Fin 1) q))) ?_
  refine (shapeCast_a_1a_apply _ _ (0 : Fin 1) q).trans ?_
  refine (Cert.LibMinReduce.colMin_apply _ _ _ _ q).trans ?_
  exact congrArg (Finset.univ : Finset (Fin 256)).inf (funext fun p => pay2_apply v3 v5 v11 p q)

/-- The restart value of the scratch row: +inf everywhere. -/
theorem pay1_apply (q : Fin 8192) : k0_pay1 (F := Ideal) (ix2 (0 : Fin 1) q) = ⊤ := by
  unfold k0_pay1
  rw [shapeCast_self, broadcast_apply]
  exact Cert.LibMinReduce.ofBits_inf_f32

/-- The second output's entry (r, q): the scratch row's entry q clamped at zero, whatever the row r. -/
theorem pay5_apply (v33 : FVec Ideal S1x8192 .f32) (r : Fin 8) (q : Fin 8192) :
    k0_pay5 (F := Ideal) v33 (ix2 r q) = max (v33 (ix2 (0 : Fin 1) q)) 0 := by
  unfold k0_pay5
  refine (broadcastTo_1b_ab_apply _ _ r q).trans ?_
  rw [shapeCast_self, maximumf_apply, broadcast_apply]
  exact congrArg (max (v33 (ix2 (0 : Fin 1) q))) Ideal.ofBits_zero_f32

end Cert.KernelIdeal.Payloads

end
-- ==== Proof.Inputs.lean ====
/-
  What the body's three input blocks hold, entry by entry over the extended reals, in terms of the two argument arrays:
  the first window is the whole array of doubled rows of `X`, the second the one row of squared lengths of `X`, the
  third the block of 256 consecutive rows of `Y` whose number is the grid point's position.
-/
import proofs.«143313_j43052752175176_2_alg».proof.Proof.Gen.KernelIdeal.Frame
import proofs.«143313_j43052752175176_2_alg».proof.Proof.LibMinReduce
import Idealize.ShloMosaic.Lib.ValueLayout
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Inputs

open Cert.KernelIdeal Cert.KernelIdeal.Gen Idealize.ShloMosaic Idealize.ShloMosaic.ValueIdx Idealize.ShloMosaic.TcCoe
open Idealize.SL.Sem Idealize.ShloMosaic.StableHlo

variable (m : (ℓ : Loc nD τ sig) → Buf (Elt Ideal) ℓ)

/-- The two argument arrays, as arrays of extended reals. -/
abbrev xs (c : Dev nD) : S8192x128.Idx → EReal := m ((c : Thread nD τ).loc main_arg0)
abbrev ys (c : Dev nD) : S8192x128.Idx → EReal := m ((c : Thread nD τ).loc main_arg1)

/-- The printed index maps, decided over the grid: the first two windows never move, the third and the first output
    move with the point's position, the second output with the position's half. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = t.val / 16 ∧ win0_4.index t (1 : Fin 2) = 0 :=
  (by decide +kernel : ∀ t : Fin grid0.N, _)

/-- The first window's array: the rows of `X` doubled. -/
theorem V_v6 (c : Dev nD) : (V m c main_v6 : S8192x128.Idx → EReal)
    = truncf .bf16 (mulf (broadcastInDim S8192x128 ![] bcast_S_S8192x128 (constant (F := Ideal) S_ .f32 0x40000000#32))
        (m ((c : Thread nD τ).loc main_arg0))) bitsLt_bf16_f32 := by
  show StableHlo.after hostOps0 (fun b => m (c, b)) (Proc.devRef .tc main_v6) = _
  after_results

theorem V_v6_apply (c : Dev nD) (n : Fin 8192) (d : Fin 128) :
    V m c main_v6 (ix2 n d) = Ideal.ofBits .f32 0x40000000#32 * xs m c (ix2 n d) := by
  rw [V_v6]; rfl

/-- The second window's array: the squared lengths of the rows of `X`, as one row. -/
theorem V_v3 (c : Dev nD) : (V m c main_v3 : S1x8192.Idx → EReal)
    = transpose S1x8192 [1, 0] (broadcastInDim S8192x1 ![0] bcast_S8192_S8192x1_0
        (Host.reduceAdd (F := Ideal) (mulf (m ((c : Thread nD τ).loc main_arg0)) (m ((c : Thread nD τ).loc main_arg0)))
          (constant (F := Ideal) S_ .f32 0x00000000#32) reducesTo_S8192x128_S8192_d1 h_S_)) transposes_S8192x1_S1x8192_1_0 := by
  show StableHlo.after hostOps0 (fun b => m (c, b)) (Proc.devRef .tc main_v3) = _
  after_results

theorem V_v3_apply (c : Dev nD) (q : Fin 8192) :
    (V m c main_v3 : S1x8192.Idx → EReal) (ix2 (0 : Fin 1) q)
      = ∑ d : Fin 128, xs m c (ix2 q d) * xs m c (ix2 q d) := by
  rw [V_v3]
  refine (transpose_ix2_apply _ _ (0 : Fin 1) q).trans ?_
  refine (broadcastInDim_apply _ _ _ (ix2 q (0 : Fin 1)) (ix1 q) (fun a => ?_)).trans ?_
  · match a with
    | ⟨0, _⟩ => rfl
  refine (Cert.LibMinReduce.hostRowSum_apply _ _ _ (by decide) _ q).trans ?_
  rw [constant_apply, Ideal.ofBits_zero_f32, zero_add]
  rfl

/-- The first input block is the whole first array. -/
theorem blk0 (c : Dev nD) (t : Fin cfg0.N) (n : Fin 8192) (d : Fin 128) :
    iblk m c 0 t (ix2 n d) = V m c main_v6 (ix2 n d) := by
  obtain ⟨e0, e1, -⟩ := idx_facts t
  unfold iblk
  rw [View.read_apply]
  show V m c main_v6 _ = _
  refine congrArg (V m c main_v6) (funext fun a => Fin.ext ?_)
  match a with
  | ⟨0, _⟩ => show win0_0.index t (0 : Fin 2) * 8192 + 1 * n.val = n.val; rw [e0]; omega
  | ⟨1, _⟩ => show win0_0.index t (1 : Fin 2) * 128 + 1 * d.val = d.val; rw [e1]; omega

/-- The second input block is the whole second array. -/
theorem blk1 (c : Dev nD) (t : Fin cfg0.N) (q : Fin 8192) :
    iblk m c 1 t (ix2 (0 : Fin 1) q) = V m c main_v3 (ix2 (0 : Fin 1) q) := by
  obtain ⟨-, -, e0, e1, -⟩ := idx_facts t
  unfold iblk
  rw [View.read_apply]
  show V m c main_v3 _ = _
  refine congrArg (V m c main_v3) (funext fun a => Fin.ext ?_)
  match a with
  | ⟨0, _⟩ => show win0_1.index t (0 : Fin 2) * 1 + 1 * 0 = 0; rw [e0]
  | ⟨1, _⟩ => show win0_1.index t (1 : Fin 2) * 8192 + 1 * q.val = q.val; rw [e1]; omega

/-- The third input block at point `t` is rows `256 t … 256 t + 255` of `Y`. -/
theorem blk2 (c : Dev nD) (t : Fin cfg0.N) (p : Fin 256) (d : Fin 128) (h : 256 * t.val + p.val < 8192) :
    iblk m c 2 t (ix2 p d) = ys m c (ix2 (⟨256 * t.val + p.val, h⟩ : Fin 8192) d) := by
  obtain ⟨-, -, -, -, e0, e1, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_2.index t (0 : Fin 2) * 256 + 1 * p.val = 256 * t.val + p.val; rw [e0]; omega
  | ⟨1, _⟩ => show win0_2.index t (1 : Fin 2) * 128 + 1 * d.val = d.val; rw [e1]; omega

end Cert.KernelIdeal.Inputs

end
-- ==== Proof.Spec.lean ====
/-
  Both programs compute, from two arrays of 8192 rows of 128 extended reals, the sum over the rows of `Y` of the
  (clamped) squared distance to the nearest row of `X`, plus the same with the roles exchanged. This module writes
  each program's numerator as a formula; the common division by the number of rows is applied outside.

  Rows are indexed by natural numbers (a row past the end is never read), so that a block of 256 consecutive rows is
  simply the rows `256 * b + p`.
-/
import Mathlib

noncomputable section

open scoped BigOperators

namespace Cert.Chamfer

variable (X Y : ℕ → Fin 128 → EReal) (two : EReal)

/-- The squared length of row `i`. -/
def sq (A : ℕ → Fin 128 → EReal) (i : ℕ) : EReal := ∑ d : Fin 128, A i d * A i d

/-- The device's squared distance between row `m` of `Y` and row `n` of `X`: the two squared lengths minus the
    inner product of `Y`'s row with the doubled row of `X`. Not clamped. -/
def dK (m n : ℕ) : EReal := (sq Y m + sq X n) - ∑ d : Fin 128, Y m d * (two * X n d)

/-- The reference's squared distance between row `i` of `X` and row `j` of `Y`: the two squared lengths minus twice
    the inner product, clamped below at zero. -/
def dR (i j : ℕ) : EReal := max ((sq X i + sq Y j) - two * ∑ d : Fin 128, X i d * Y j d) 0

/-- The least device distance from row `n` of `X` to the 256 rows of block `b` of `Y`. -/
def blockMin (b n : ℕ) : EReal := Finset.univ.inf fun p : Fin 256 => dK X Y two (256 * b + p.val) n

/-- The running minimum the device keeps per row `n` of `X` after block `t` of `Y`: it restarts at every sixteenth
    block and otherwise takes in the block's least distance. -/
def acc : ℕ → ℕ → EReal
  | 0, n => blockMin X Y two 0 n
  | t + 1, n => if (t + 1) % 16 = 0 then blockMin X Y two (t + 1) n else min (acc t n) (blockMin X Y two (t + 1) n)

/-- The device's clamped least distance from row `m` of `Y` to the rows of `X`. -/
def rowMin (m : ℕ) : EReal := max (Finset.univ.inf fun n : Fin 8192 => dK X Y two m n.val) 0

/-- The device's numerator: the clamped least distances of the rows of `Y`, plus, per row of `X`, the lesser of the two
    clamped running minima, one per half of `Y`. -/
def kernelNum : EReal :=
  (∑ m : Fin 8192, rowMin X Y two m.val)
    + ∑ n : Fin 8192, Finset.univ.inf fun c : Fin 2 => max (acc X Y two (16 * c.val + 15) n.val) 0

/-- The reference's numerator: per index `k`, the least clamped distance down column `k` plus the least along row `k`. -/
def refNum : EReal :=
  ∑ k : Fin 8192, ((Finset.univ.inf fun i : Fin 8192 => dR X Y two i.val k.val)
    + Finset.univ.inf fun j : Fin 8192 => dR X Y two k.val j.val)

/-- A fold of `min` started at the top element is the infimum. -/
theorem fold_min_top {ι : Type} (s : Finset ι) (f : ι → EReal) : s.fold min ⊤ f = s.inf f := by
  classical
  induction s using Finset.induction_on with
  | empty => simp
  | insert a s ha ih => rw [Finset.fold_insert ha, Finset.inf_insert, ih]

end Cert.Chamfer

end
-- ==== Proof.Rows.lean ====
/-
  An [8192, 128] array of extended reals as its rows, numbered by natural numbers; a row number past the end gives
  a row of zeros, which nothing reads. A sum over a rank-1 index set is the sum over its one coordinate.
-/
import Idealize.ShloMosaic.Lib.ValueIdx
import Idealize.ShloMosaic.PureOps.Ideal

noncomputable section

open scoped BigOperators

namespace Cert.Chamfer

open Idealize.ShloMosaic Idealize.ShloMosaic.ValueIdx

/-- The rows of an [8192, 128] array. -/
def rowsOf (a : (⟨2, ![8192, 128]⟩ : Shape).Idx → EReal) : ℕ → Fin 128 → EReal :=
  fun r d => if h : r < 8192 then a (ix2 (⟨r, h⟩ : Fin 8192) d) else 0

/-- Row `r` of the array, for a row number in range. -/
theorem rowsOf_apply (a : (⟨2, ![8192, 128]⟩ : Shape).Idx → EReal) (r : ℕ) (h : r < 8192) (d : Fin 128) :
    rowsOf a r d = a (ix2 (⟨r, h⟩ : Fin 8192) d) := dif_pos h

/-- A rank-1 index set is its one coordinate. -/
def idxEquiv1 {n : Nat} : (⟨1, ![n]⟩ : Shape).Idx ≃ Fin n where
  toFun j := j 0
  invFun k := ix1 k
  left_inv j := (eq_ix1 j).symm
  right_inv _ := rfl

/-- A sum over a rank-1 index set is the sum over its coordinate. -/
theorem sum_idx1 {M : Type*} [AddCommMonoid M] {n : Nat} (f : (⟨1, ![n]⟩ : Shape).Idx → M) :
    ∑ j, f j = ∑ k : Fin n, f (ix1 k) := by
  rw [← Equiv.sum_comp (idxEquiv1 (n := n)).symm f]; rfl

end Cert.Chamfer

end
-- ==== Proof.Accumulate.lean ====
/-
  What the staging buffers and the scratch row hold after each grid point. After the point at position `t` the first
  output's buffer holds the clamped least distances of the rows of block `t` of `Y`; the scratch row holds, per row
  of `X`, the running minimum over the blocks since the last restart (by induction on the position); and at the last of
  each sixteen steps the second output's buffer holds the clamped running minimum on each of its rows.
-/
import proofs.«143313_j43052752175176_2_alg».proof.Proof.Pieces
import proofs.«143313_j43052752175176_2_alg».proof.Proof.Payloads
import proofs.«143313_j43052752175176_2_alg».proof.Proof.Inputs
import proofs.«143313_j43052752175176_2_alg».proof.Proof.Spec
import proofs.«143313_j43052752175176_2_alg».proof.Proof.Rows

set_option maxRecDepth 16384

noncomputable section

open scoped BigOperators

namespace Cert.KernelIdeal.Accumulate

open Cert.KernelIdeal Cert.KernelIdeal.Gen Idealize.ShloMosaic Idealize.ShloMosaic.ValueIdx Idealize.ShloMosaic.TcCoe
open Idealize.SL.Sem Cert.Chamfer Cert.KernelIdeal.Inputs

variable (m : (ℓ : Loc nD τ sig) → Buf (Elt Ideal) ℓ)

/-- The doubling factor, as the program spells it. -/
abbrev two : EReal := Ideal.ofBits .f32 0x40000000#32

/-- The rows of the first and of the second argument. -/
abbrev X (c : Dev nD) : ℕ → Fin 128 → EReal := rowsOf (xs m c)
abbrev Y (c : Dev nD) : ℕ → Fin 128 → EReal := rowsOf (ys m c)

/-- The scratch row as the point before `t` left it. -/
abbrev prev (c : Dev nD) (t : Fin cfg0.N) : Vec Ideal S1x8192 .f32 :=
  (outsAt0 m c (t.val - 1) (Nat.lt_of_le_of_lt (Nat.sub_le _ _) t.isLt)).2.2

/-- The distance block at point `t`: rows `256 t + p` of `Y` against the rows of `X`. -/
theorem dist_eq (c : Dev nD) (t : Fin cfg0.N) (p : Fin 256) (q : Fin 8192) :
    Payloads.dist (iblk m c 2 t) (iblk m c 0 t) (iblk m c 1 t) p q = dK (X m c) (Y m c) two (256 * t.val + p.val) q.val := by
  have hN : cfg0.N = 32 := N_0
  have ht := t.isLt
  have h : 256 * t.val + p.val < 8192 := by have := p.isLt; omega
  have e2 : ∀ d, iblk m c 2 t (ix2 p d) = Y m c (256 * t.val + p.val) d := fun d =>
    (blk2 m c t p d h).trans (rowsOf_apply _ _ h d).symm
  have e0 : ∀ d, iblk m c 0 t (ix2 q d) = two * X m c q.val d := fun d =>
    (blk0 m c t q d).trans ((V_v6_apply m c q d).trans (congrArg (two * ·) (rowsOf_apply _ _ q.isLt d).symm))
  have e1' : (∑ d : Fin 128, xs m c (ix2 q d) * xs m c (ix2 q d)) = ∑ d : Fin 128, X m c q.val d * X m c q.val d :=
    Finset.sum_congr rfl fun d _ =>
      congrArg₂ (· * ·) (rowsOf_apply (xs m c) q.val q.isLt d).symm (rowsOf_apply (xs m c) q.val q.isLt d).symm
  have e1 : (iblk m c 1 t : S1x8192.Idx → EReal) (ix2 (0 : Fin 1) q) = ∑ d : Fin 128, X m c q.val d * X m c q.val d :=
    ((blk1 m c t q).trans (V_v3_apply m c q)).trans e1'
  unfold Payloads.dist dK Cert.Chamfer.sq
  exact congrArg₂ (· - ·) (congrArg₂ (· + ·) (Finset.sum_congr rfl fun d _ => by rw [e2 d]) e1)
    (Finset.sum_congr rfl fun d _ => by rw [e2 d, e0 d])

theorem blockMin_eq (c : Dev nD) (t : Fin cfg0.N) (q : Fin 8192) :
    ((Finset.univ : Finset (Fin 256)).inf fun p => Payloads.dist (iblk m c 2 t) (iblk m c 0 t) (iblk m c 1 t) p q)
      = blockMin (X m c) (Y m c) two t.val q.val :=
  congrArg (Finset.univ : Finset (Fin 256)).inf (funext fun p => dist_eq m c t p q)

theorem rowMin_eq (c : Dev nD) (t : Fin cfg0.N) (p : Fin 256) :
    max ((Finset.univ : Finset (Fin 8192)).inf fun q => Payloads.dist (iblk m c 2 t) (iblk m c 0 t) (iblk m c 1 t) p q) 0
      = rowMin (X m c) (Y m c) two (256 * t.val + p.val) :=
  congrArg (max · 0) (congrArg (Finset.univ : Finset (Fin 8192)).inf (funext fun q => dist_eq m c t p q))

/-- A first step leaves the block's column minima in the scratch row. -/
theorem scrA_at (c : Dev nD) (t : Fin cfg0.N) (h0 : t.val % 16 = 0) (h1 : ¬t.val % 16 = 15) (q : Fin 8192) :
    (outsAt0 m c t.val t.isLt).2.2 (ix2 (0 : Fin 1) q) = blockMin (X m c) (Y m c) two t.val q.val := by
  rw [outsAt0_A m c t h0 h1]
  dsimp only
  refine (congrFun (Pieces.scr_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t)) (ix2 (0 : Fin 1) q)).trans ?_
  refine (Payloads.pay4_apply (iblk m c 2 t) (iblk m c 0 t) (iblk m c 1 t) (k0_pay1 (F := Ideal)) q).trans ?_
  rw [Payloads.pay1_apply, min_top_left]
  exact blockMin_eq m c t q

/-- A middle step takes the block's column minima into the scratch row. -/
theorem scrB_at (c : Dev nD) (t : Fin cfg0.N) (h0 : ¬t.val % 16 = 0) (h1 : ¬t.val % 16 = 15) (q : Fin 8192) :
    (outsAt0 m c t.val t.isLt).2.2 (ix2 (0 : Fin 1) q)
      = min (prev m c t (ix2 (0 : Fin 1) q)) (blockMin (X m c) (Y m c) two t.val q.val) := by
  rw [outsAt0_B m c t h0 h1]
  dsimp only
  refine (congrFun (Pieces.scr_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (prev m c t)) (ix2 (0 : Fin 1) q)).trans ?_
  refine (Payloads.pay4_apply (iblk m c 2 t) (iblk m c 0 t) (iblk m c 1 t) (prev m c t) q).trans ?_
  exact congrArg (min (prev m c t (ix2 (0 : Fin 1) q))) (blockMin_eq m c t q)

/-- So does a last step. -/
theorem scrC_at (c : Dev nD) (t : Fin cfg0.N) (h0 : ¬t.val % 16 = 0) (h1 : t.val % 16 = 15) (q : Fin 8192) :
    (outsAt0 m c t.val t.isLt).2.2 (ix2 (0 : Fin 1) q)
      = min (prev m c t (ix2 (0 : Fin 1) q)) (blockMin (X m c) (Y m c) two t.val q.val) := by
  rw [outsAt0_C m c t h0 h1]
  dsimp only
  refine (congrFun (Pieces.scr_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (prev m c t)) (ix2 (0 : Fin 1) q)).trans ?_
  refine (Payloads.pay4_apply (iblk m c 2 t) (iblk m c 0 t) (iblk m c 1 t) (prev m c t) q).trans ?_
  exact congrArg (min (prev m c t (ix2 (0 : Fin 1) q))) (blockMin_eq m c t q)

/-- The scratch row after the point at position `n` is the running minimum. -/
theorem scr_eq (c : Dev nD) : ∀ (n : ℕ) (h : n < cfg0.N) (q : Fin 8192),
    (outsAt0 m c n h).2.2 (ix2 (0 : Fin 1) q) = acc (X m c) (Y m c) two n q.val := by
  intro n
  induction n with
  | zero =>
    intro h q
    exact scrA_at m c ⟨0, h⟩ rfl (by show ¬(0 : ℕ) % 16 = 15; decide) q
  | succ n ih =>
    intro h q
    by_cases h0 : (n + 1) % 16 = 0
    · have h1 : ¬(n + 1) % 16 = 15 := by omega
      refine (scrA_at m c ⟨n + 1, h⟩ h0 h1 q).trans ?_
      simp only [acc, if_pos h0]
    · have e : prev m c ⟨n + 1, h⟩ (ix2 (0 : Fin 1) q) = acc (X m c) (Y m c) two n q.val :=
        ih (Nat.lt_of_succ_lt h) q
      by_cases h1 : (n + 1) % 16 = 15
      · refine (scrC_at m c ⟨n + 1, h⟩ h0 h1 q).trans ?_
        rw [e]; simp only [acc, if_neg h0]
      · refine (scrB_at m c ⟨n + 1, h⟩ h0 h1 q).trans ?_
        rw [e]; simp only [acc, if_neg h0]

/-- The first output's buffer after the point at position `t`: the clamped least distances of block `t`'s rows. -/
theorem out3_eq (c : Dev nD) (t : Fin cfg0.N) (p : Fin 256) :
    (outsAt0 m c t.val t.isLt).1 (ix2 (0 : Fin 1) p) = rowMin (X m c) (Y m c) two (256 * t.val + p.val) := by
  by_cases h0 : t.val % 16 = 0
  · have h1 : ¬t.val % 16 = 15 := by omega
    rw [outsAt0_A m c t h0 h1]
    dsimp only
    refine (congrFun (Pieces.out3_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t)) (ix2 (0 : Fin 1) p)).trans ?_
    exact (Payloads.pay3_apply (iblk m c 2 t) (iblk m c 0 t) (iblk m c 1 t) p).trans (rowMin_eq m c t p)
  · by_cases h1 : t.val % 16 = 15
    · rw [outsAt0_C m c t h0 h1]
      dsimp only
      refine (congrFun (Pieces.out3_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (prev m c t)) (ix2 (0 : Fin 1) p)).trans ?_
      exact (Payloads.pay3_apply (iblk m c 2 t) (iblk m c 0 t) (iblk m c 1 t) p).trans (rowMin_eq m c t p)
    · rw [outsAt0_B m c t h0 h1]
      dsimp only
      refine (congrFun (Pieces.out3_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (prev m c t)) (ix2 (0 : Fin 1) p)).trans ?_
      exact (Payloads.pay3_apply (iblk m c 2 t) (iblk m c 0 t) (iblk m c 1 t) p).trans (rowMin_eq m c t p)

/-- The second output's buffer after a last step: the clamped running minimum, on every row. -/
theorem out4_eq (c : Dev nD) (t : Fin cfg0.N) (h1 : t.val % 16 = 15) (r : Fin 8) (q : Fin 8192) :
    (outsAt0 m c t.val t.isLt).2.1 (ix2 r q) = max (acc (X m c) (Y m c) two t.val q.val) 0 := by
  have h0 : ¬t.val % 16 = 0 := by omega
  have hs : k0_pay4 (F := Ideal) (iblk m c 2 t) (iblk m c 0 t) (iblk m c 1 t) (prev m c t) (ix2 (0 : Fin 1) q) = acc (X m c) (Y m c) two t.val q.val := by
    have e := scr_eq m c t.val t.isLt q
    rw [outsAt0_C m c t h0 h1] at e
    dsimp only at e
    exact (congrFun (Pieces.scr_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (prev m c t)) (ix2 (0 : Fin 1) q)).symm.trans e
  rw [outsAt0_C m c t h0 h1]
  dsimp only
  refine (congrFun (Pieces.out4_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (prev m c t)) (ix2 r q)).trans ?_
  refine (Payloads.pay5_apply (k0_pay4 (F := Ideal) (iblk m c 2 t) (iblk m c 0 t) (iblk m c 1 t) (prev m c t)) r q).trans ?_
  exact congrArg (max · 0) hs

end Cert.KernelIdeal.Accumulate

end
-- ==== Proof.Arrays.lean ====
/-
  The two output arrays after the region. Every grid point writes its 256 entries of the first output, and the blocks
  tile the row: its entry `k` ends at the clamped least distance from row `k` of `Y` to the rows of `X`. The second
  output is written once per half of `Y`, after the sixteenth step, eight equal rows at a time: rows `8 h … 8 h + 7`
  end at the clamped running minimum over the blocks of half `h`.
-/
import proofs.«143313_j43052752175176_2_alg».proof.Proof.Accumulate
import Idealize.ShloMosaic.Lib.Pipeline.Value

set_option maxRecDepth 16384

noncomputable section

open scoped BigOperators

namespace Cert.KernelIdeal.Arrays

open Cert.KernelIdeal Cert.KernelIdeal.Gen Idealize.ShloMosaic Idealize.ShloMosaic.ValueIdx Idealize.ShloMosaic.TcCoe
open Idealize.SL.Sem Cert.Chamfer Cert.KernelIdeal.Inputs Cert.KernelIdeal.Accumulate
open Idealize.ShloMosaic.Pipeline (Dat)

variable (m : (ℓ : Loc nD τ sig) → Buf (Elt Ideal) ℓ)

/-- The first output array: entry `k` is the clamped least distance of row `k` of `Y`. -/
def G3 (c : Dev nD) : S1x8192.Idx → EReal := fun i => rowMin (X m c) (Y m c) two (i 1).val

/-- The second output array: every row of half `h` holds the clamped running minimum after that half's last block. -/
def G4 (c : Dev nD) : S16x8192.Idx → EReal := fun i => max (acc (X m c) (Y m c) two (16 * ((i 0).val / 8) + 15) (i 1).val) 0

/-- What point `t` writes back into the first output is block `t` of `G3`. -/
theorem flushed3_eq (c : Dev nD) (t : Fin cfg0.N) :
    (dats m 0 c).flushed 3 t = ((cfg0.win 3).blk t).view.read (Elt Ideal) (G3 m c) := by
  obtain ⟨-, -, -, -, -, -, e0, e1, -⟩ := idx_facts t
  show (cfg0.win 3).cut (grid0.coords t) ((dats m 0 c).after 3 t) = _
  rw [after0_3]
  funext y
  obtain ⟨u, p, rfl⟩ : ∃ (u : Fin 1) (p : Fin 256), y = ix2 u p := ⟨y 0, y 1, eq_ix2 y⟩
  obtain rfl : u = 0 := Subsingleton.elim _ _
  rw [View.read_apply]
  show (outsAt0 m c t.val t.isLt).1 (ix2 (0 : Fin 1) p) = G3 m c (((cfg0.win 3).blk t).view.emb (ix2 (0 : Fin 1) p))
  rw [out3_eq m c t p]
  unfold G3
  refine congrArg (rowMin (X m c) (Y m c) two) ?_
  show 256 * t.val + p.val = win0_3.index t (1 : Fin 2) * 256 + 1 * p.val
  rw [e1]; omega

/-- What a last step writes back into the second output is its block of `G4`. -/
theorem flushed4_eq (c : Dev nD) (t : Fin cfg0.N) (hf : (cfg0.win 4).flush t = true) :
    (dats m 0 c).flushed 4 t = ((cfg0.win 4).blk t).view.read (Elt Ideal) (G4 m c) := by
  have h15 : t.val % 16 = 15 := (flush0_4 t).mp hf
  obtain ⟨-, -, -, -, -, -, -, -, e0, e1⟩ := idx_facts t
  show (cfg0.win 4).cut (grid0.coords t) ((dats m 0 c).after 4 t) = _
  rw [after0_4]
  funext y
  obtain ⟨r, q, rfl⟩ : ∃ (r : Fin 8) (q : Fin 8192), y = ix2 r q := ⟨y 0, y 1, eq_ix2 y⟩
  rw [View.read_apply]
  show (outsAt0 m c t.val t.isLt).2.1 (ix2 r q) = G4 m c (((cfg0.win 4).blk t).view.emb (ix2 r q))
  rw [out4_eq m c t h15 r q]
  unfold G4
  have a0 : ((((cfg0.win 4).blk t).view.emb (ix2 r q)) 0).val = t.val / 16 * 8 + r.val := by
    show win0_4.index t (0 : Fin 2) * 8 + 1 * r.val = _
    rw [e0]; omega
  have a1 : ((((cfg0.win 4).blk t).view.emb (ix2 r q)) 1).val = q.val := by
    show win0_4.index t (1 : Fin 2) * 8192 + 1 * q.val = _
    rw [e1]; omega
  have hr := r.isLt
  have a2 : 16 * ((t.val / 16 * 8 + r.val) / 8) + 15 = t.val := by omega
  rw [a0, a1, a2]

theorem mem_blk3 (t : Fin cfg0.N) (i : S1x8192.Idx) :
    i ∈ ((cfg0.win 3).blk t).view.set ↔ ∀ a : Fin 2, win0_3.index t a * S1x256.size a ≤ (i a).val ∧ (i a).val < win0_3.index t a * S1x256.size a + S1x256.size a := by
  show i ∈ ((View.whole main_v7_0).slice (win0_3.rect t)).set ↔ _
  rw [View.set_slice_whole, Rect.mem_set_unit]
  exact Iff.rfl

theorem mem_blk4 (t : Fin cfg0.N) (i : S16x8192.Idx) :
    i ∈ ((cfg0.win 4).blk t).view.set ↔ ∀ a : Fin 2, win0_4.index t a * S8x8192.size a ≤ (i a).val ∧ (i a).val < win0_4.index t a * S8x8192.size a + S8x8192.size a := by
  show i ∈ ((View.whole main_v7_1).slice (win0_4.rect t)).set ↔ _
  rw [View.set_slice_whole, Rect.mem_set_unit]
  exact Iff.rfl

/-- Entry `k` of the first output lies in the block of point `k / 256`. -/
theorem cover3 (i : S1x8192.Idx) : ∃ t : Fin cfg0.N, (cfg0.win 3).flush t = true ∧ i ∈ ((cfg0.win 3).blk t).view.set := by
  have hN : cfg0.N = 32 := N_0
  have hi0 : (i 0).val < 1 := (i 0).isLt
  have hi1 : (i 1).val < 8192 := (i 1).isLt
  have ht : (i 1).val / 256 < cfg0.N := by omega
  obtain ⟨-, -, -, -, -, -, e0, e1, -⟩ := idx_facts ⟨(i 1).val / 256, ht⟩
  refine ⟨⟨(i 1).val / 256, ht⟩, flush0_3 _, ?_⟩
  rw [mem_blk3]
  intro a
  match a with
  | ⟨0, _⟩ =>
    show win0_3.index ⟨(i 1).val / 256, ht⟩ (0 : Fin 2) * 1 ≤ (i 0).val ∧ (i 0).val < win0_3.index ⟨(i 1).val / 256, ht⟩ (0 : Fin 2) * 1 + 1
    rw [e0]; omega
  | ⟨1, _⟩ =>
    show win0_3.index ⟨(i 1).val / 256, ht⟩ (1 : Fin 2) * 256 ≤ (i 1).val ∧ (i 1).val < win0_3.index ⟨(i 1).val / 256, ht⟩ (1 : Fin 2) * 256 + 256
    rw [e1]
    show (i 1).val / 256 * 256 ≤ (i 1).val ∧ (i 1).val < (i 1).val / 256 * 256 + 256
    omega

/-- Row `r` of the second output lies in the block written after the last step of half `r / 8`. -/
theorem cover4 (i : S16x8192.Idx) : ∃ t : Fin cfg0.N, (cfg0.win 4).flush t = true ∧ i ∈ ((cfg0.win 4).blk t).view.set := by
  have hN : cfg0.N = 32 := N_0
  have hi0 : (i 0).val < 16 := (i 0).isLt
  have hi1 : (i 1).val < 8192 := (i 1).isLt
  have ht : 16 * ((i 0).val / 8) + 15 < cfg0.N := by omega
  obtain ⟨-, -, -, -, -, -, -, -, e0, e1⟩ := idx_facts ⟨16 * ((i 0).val / 8) + 15, ht⟩
  refine ⟨⟨16 * ((i 0).val / 8) + 15, ht⟩, (flush0_4 _).mpr (by show (16 * ((i 0).val / 8) + 15) % 16 = 15; omega), ?_⟩
  rw [mem_blk4]
  intro a
  match a with
  | ⟨0, _⟩ =>
    show win0_4.index ⟨16 * ((i 0).val / 8) + 15, ht⟩ (0 : Fin 2) * 8 ≤ (i 0).val ∧ (i 0).val < win0_4.index ⟨16 * ((i 0).val / 8) + 15, ht⟩ (0 : Fin 2) * 8 + 8
    rw [e0]
    show (16 * ((i 0).val / 8) + 15) / 16 * 8 ≤ (i 0).val ∧ (i 0).val < (16 * ((i 0).val / 8) + 15) / 16 * 8 + 8
    omega
  | ⟨1, _⟩ =>
    show win0_4.index ⟨16 * ((i 0).val / 8) + 15, ht⟩ (1 : Fin 2) * 8192 ≤ (i 1).val ∧ (i 1).val < win0_4.index ⟨16 * ((i 0).val / 8) + 15, ht⟩ (1 : Fin 2) * 8192 + 8192
    rw [e1]; omega

/-- The first output array after the run. -/
theorem final3 (c : Dev nD) : (dats m 0 c).arrAt 3 cfg0.N = G3 m c :=
  (dats m 0 c).arrAt_eq_of_cover 3 (G3 m c) (fun t _ => flushed3_eq m c t) cover3

/-- The second output array after the run. -/
theorem final4 (c : Dev nD) : (dats m 0 c).arrAt 4 cfg0.N = G4 m c :=
  (dats m 0 c).arrAt_eq_of_cover 4 (G4 m c) (flushed4_eq m c) cover4

end Cert.KernelIdeal.Arrays

end
-- ==== Proof.TailDef.lean ====
/-
  The host operations after the region, as one function of the two output arrays: the first output summed, the second
  regrouped as two stacks of eight rows of which the first row of each is kept, the lesser of the two taken entry by
  entry and summed, the two sums added and divided by the number of rows.
-/
import proofs.«143313_j43052752175176_2_alg».proof.Proof.Gen.KernelIdeal
import Idealize.ShloMosaic.PureOps.Ideal

noncomputable section

namespace Cert.KernelIdeal.Tail

open Cert.KernelIdeal Cert.KernelIdeal.Gen Idealize.ShloMosaic

/-- The second output regrouped and cut down to one row per half: entry (k, n) is row `8 k` at `n`. -/
def halves (a4 : S16x8192.Idx → EReal) : S2x8192.Idx → EReal :=
  shapeCast S2x8192 (extractStridedSlice S2x1x8192 ![0, 0, 0] (shapeCast S2x8x8192 a4 shapeCasts_S16x8192_S2x8x8192)
    slices_S2x8x8192_S2x1x8192_0_0_0) shapeCasts_S2x1x8192_S2x8192

/-- The operations after the region, of the two output arrays. -/
def tail (a3 : S1x8192.Idx → EReal) (a4 : S16x8192.Idx → EReal) : S_.Idx → EReal :=
  Host.divf (F := Ideal)
    (addf (Host.reduceAdd (F := Ideal) a3 (constant (F := Ideal) S_ .f32 0x00000000#32) reducesTo_S1x8192_S_d0_1 h_S_)
      (Host.reduceAdd (F := Ideal)
        (Host.reduce FloatOps.minimumf (halves a4) (constant (F := Ideal) S_ .f32 0x7F800000#32) reducesTo_S2x8192_S8192_d0 h_S_)
        (constant (F := Ideal) S_ .f32 0x00000000#32) reducesTo_S8192_S_d0 h_S_))
    (constant (F := Ideal) S_ .f32 0x46000000#32)

end Cert.KernelIdeal.Tail

end
-- ==== Proof.TailRun.lean ====
/-
  What the device program's result buffer holds at the end: the operations after the region applied to the two output
  arrays as the region left them.
-/
import proofs.«143313_j43052752175176_2_alg».proof.Proof.Gen.KernelIdeal.Frame
import proofs.«143313_j43052752175176_2_alg».proof.Proof.TailDef
import Idealize.ShloMosaic.Lib.Pipeline.Value
import Idealize.ShloMosaic.Lib.StableHlo.Run
import Idealize.ShloMosaic.Lib.Tactic

set_option maxRecDepth 16384

noncomputable section

namespace Cert.KernelIdeal.Tail

open Cert.KernelIdeal Cert.KernelIdeal.Gen Idealize.ShloMosaic Idealize.ShloMosaic.TcCoe
open Idealize.SL.Sem Idealize.ShloMosaic.StableHlo

variable (m : (ℓ : Loc nD τ sig) → Buf (Elt Ideal) ℓ)

theorem tail_run (c : Dev nD) :
    Pipeline.afterTail₀ cfgs (dats m) 0 (V0 m) [hostOps1] c main_v15
      = tail ((dats m 0 c).arrAt 3 cfg0.N) ((dats m 0 c).arrAt 4 cfg0.N) := by
  unfold Pipeline.afterTail₀
  show StableHlo.after hostOps1 _ (Proc.devRef .tc main_v15) = _
  after_results
  rw [Pipeline.withArrays_arr spec0 launch0.win.arr_inj c _ _ 3, Pipeline.withArrays_arr spec0 launch0.win.arr_inj c _ _ 4]
  generalize (dats m 0 c).arrAt 3 cfg0.N = A3
  generalize (dats m 0 c).arrAt 4 cfg0.N = A4
  rfl

end Cert.KernelIdeal.Tail

end
-- ==== Proof.LibLayoutOps.lean ====
/-
  RESHAPES THAT MERGE OR SPLIT THE LEADING AXIS, READ AT AN INDEX.

  A row-major array `[a, b, c]` viewed as `[a·b, c]` reads, at `(r, q)`, the entry `(r / b, r % b, q)`; the same
  array viewed the other way, `[a·b, c]` as `[a, b, c]`, reads at `(x, y, q)` the entry `(x·b + y, q)`.
  Likewise one axis more: `[a, b, c, d]` as `[a·b, c, d]` and back, and `[a, b, c, d]` as `[a·b·c, d]` and back.
  A middle unit axis dropped, `[a, 1, c] → [a, c]`, reads `(x, 0, q)`.
-/
import Idealize.ShloMosaic.Lib.ValueIdx
import Idealize.ShloMosaic.Lib.Pipeline.Value

noncomputable section

namespace Cert.LayoutOps

open Idealize.ShloMosaic Idealize.ShloMosaic.ValueIdx

variable {α : Type}

theorem mul_add_lt {a b x y : ℕ} (hx : x < a) (hy : y < b) : x * b + y < a * b :=
  Nat.lt_of_lt_of_le (Nat.add_lt_add_left hy _) (by rw [← Nat.succ_mul]; exact Nat.mul_le_mul_right _ hx)

theorem div_lt_of_lt_mul' {a b r : ℕ} (h : r < a * b) : r / b < a :=
  Nat.div_lt_of_lt_mul (by rw [Nat.mul_comm]; exact h)

theorem pos_of_lt_mul {a b r : ℕ} (h : r < a * b) : 0 < b := by
  rcases Nat.eq_zero_or_pos b with hb | hb
  · subst hb; simp at h
  · exact hb

/-- `[a, b, c]` read as `[a·b, c]`. -/
theorem merge3 {a b c N : ℕ} (hN : N = a * b) (X : (⟨3, ![a, b, c]⟩ : Shape).Idx → α)
    (h : (⟨3, ![a, b, c]⟩ : Shape).ShapeCasts ⟨2, ![N, c]⟩) (r : Fin N) (q : Fin c) :
    shapeCast ⟨2, ![N, c]⟩ X h (ix2 r q)
      = X (ix3 (⟨r.val / b, div_lt_of_lt_mul' (lt_of_lt_of_eq r.isLt hN)⟩ : Fin a) (⟨r.val % b, Nat.mod_lt _ (pos_of_lt_mul (lt_of_lt_of_eq r.isLt hN))⟩ : Fin b) q) :=
  shapeCast_apply X h _ _ (by
    rw [Shape.rowMajor_val_three, Shape.rowMajor_val_two]
    show (r.val / b * b + r.val % b) * c + q.val = r.val * c + q.val
    rw [Nat.div_add_mod'])

/-- `[a·b, c]` read as `[a, b, c]`. -/
theorem split3 {a b c N : ℕ} (hN : N = a * b) (X : (⟨2, ![N, c]⟩ : Shape).Idx → α)
    (h : (⟨2, ![N, c]⟩ : Shape).ShapeCasts ⟨3, ![a, b, c]⟩) (x : Fin a) (y : Fin b) (q : Fin c) :
    shapeCast ⟨3, ![a, b, c]⟩ X h (ix3 x y q) = X (ix2 (⟨x.val * b + y.val, lt_of_lt_of_eq (mul_add_lt x.isLt y.isLt) hN.symm⟩ : Fin N) q) :=
  shapeCast_apply X h _ _ (by
    rw [Shape.rowMajor_val_three, Shape.rowMajor_val_two]
    rfl)

/-- `[a, 1, c]` read as `[a, c]`. -/
theorem dropMid {a c : ℕ} (X : (⟨3, ![a, 1, c]⟩ : Shape).Idx → α)
    (h : (⟨3, ![a, 1, c]⟩ : Shape).ShapeCasts ⟨2, ![a, c]⟩) (x : Fin a) (q : Fin c) :
    shapeCast ⟨2, ![a, c]⟩ X h (ix2 x q) = X (ix3 x (0 : Fin 1) q) :=
  shapeCast_apply X h _ _ (by
    rw [Shape.rowMajor_val_three, Shape.rowMajor_val_two]
    show (x.val * 1 + 0) * c + q.val = x.val * c + q.val
    rw [Nat.mul_one, Nat.add_zero])

/-- `[a, b, c, d]` read as `[a·b, c, d]`. -/
theorem merge4 {a b c d N : ℕ} (hN : N = a * b) (X : (⟨4, ![a, b, c, d]⟩ : Shape).Idx → α)
    (h : (⟨4, ![a, b, c, d]⟩ : Shape).ShapeCasts ⟨3, ![N, c, d]⟩) (r : Fin N) (p : Fin c) (q : Fin d) :
    shapeCast ⟨3, ![N, c, d]⟩ X h (ix3 r p q)
      = X (ix4 (⟨r.val / b, div_lt_of_lt_mul' (lt_of_lt_of_eq r.isLt hN)⟩ : Fin a) (⟨r.val % b, Nat.mod_lt _ (pos_of_lt_mul (lt_of_lt_of_eq r.isLt hN))⟩ : Fin b) p q) :=
  shapeCast_apply X h _ _ (by
    rw [Shape.rowMajor_val_four, Shape.rowMajor_val_three]
    show ((r.val / b * b + r.val % b) * c + p.val) * d + q.val = (r.val * c + p.val) * d + q.val
    rw [Nat.div_add_mod'])

/-- `[a·b, c, d]` read as `[a, b, c, d]`. -/
theorem split4 {a b c d N : ℕ} (hN : N = a * b) (X : (⟨3, ![N, c, d]⟩ : Shape).Idx → α)
    (h : (⟨3, ![N, c, d]⟩ : Shape).ShapeCasts ⟨4, ![a, b, c, d]⟩) (x : Fin a) (y : Fin b) (p : Fin c) (q : Fin d) :
    shapeCast ⟨4, ![a, b, c, d]⟩ X h (ix4 x y p q) = X (ix3 (⟨x.val * b + y.val, lt_of_lt_of_eq (mul_add_lt x.isLt y.isLt) hN.symm⟩ : Fin N) p q) :=
  shapeCast_apply X h _ _ (by
    rw [Shape.rowMajor_val_four, Shape.rowMajor_val_three]
    rfl)

end Cert.LayoutOps

end
-- ==== Proof.TailRead.lean ====
/-
  The operations after the region read over the extended reals: the sum of the first array plus the sum over `n` of
  the lesser of rows 0 and 8 of the second at `n`, divided by the number of rows.
-/
import proofs.«143313_j43052752175176_2_alg».proof.Proof.TailDef
import proofs.«143313_j43052752175176_2_alg».proof.Proof.LibMinReduce
import proofs.«143313_j43052752175176_2_alg».proof.Proof.LibLayoutOps
import proofs.«143313_j43052752175176_2_alg».proof.Proof.Rows
import Idealize.ShloMosaic.Lib.ValueLayout
import Idealize.ShloMosaic.Lib.Pipeline.Value
import Idealize.ShloMosaic.PureOps.Ideal.Laws

noncomputable section

open scoped BigOperators

namespace Cert.KernelIdeal.Tail

open Cert.KernelIdeal Cert.KernelIdeal.Gen Idealize.ShloMosaic Idealize.ShloMosaic.ValueIdx

/-- The host's quotient, entry by entry. -/
theorem hostDivf_apply {s : Shape} {φ : FTy} (a b : FVec Ideal s φ) (i : s.Idx) : Host.divf a b i = Ideal.div (a i) (b i) := rfl

/-- Row `8 k` of the sixteen. -/
def firstRow (k : Fin 2) : Fin 16 := ⟨k.val * 8, by have := k.isLt; omega⟩

theorem halves_apply (a4 : S16x8192.Idx → EReal) (k : Fin 2) (n : Fin 8192) :
    halves a4 (ix2 k n) = a4 (ix2 (firstRow k) n) := by
  unfold halves
  refine (Cert.LayoutOps.dropMid _ _ k n).trans ?_
  refine (slice3_axis1_apply 0 _ _ k (0 : Fin 1) n (0 : Fin 8) rfl).trans ?_
  refine (Cert.LayoutOps.split3 (a := 2) (b := 8) (N := 16) rfl a4 _ k (0 : Fin 8) n).trans ?_
  exact congrArg (fun r => a4 (ix2 r n)) (Fin.ext (by show k.val * 8 + 0 = k.val * 8; omega))

/-- The tail read over the extended reals. -/
theorem tail_apply (a3 : S1x8192.Idx → EReal) (a4 : S16x8192.Idx → EReal) (i : S_.Idx) :
    tail a3 a4 i
      = Ideal.div ((∑ n : Fin 8192, a3 (ix2 (0 : Fin 1) n))
          + ∑ n : Fin 8192, (Finset.univ : Finset (Fin 2)).inf fun k => a4 (ix2 (firstRow k) n))
        (Ideal.ofBits .f32 0x46000000#32) := by
  unfold tail
  rw [hostDivf_apply, addf_apply, Cert.LibMinReduce.hostSumAll_apply, Cert.LibMinReduce.hostSumAll_apply]
  simp only [constant_apply, Ideal.ofBits_zero_f32, zero_add]
  rw [sum_idx2, Fin.sum_univ_one, Cert.Chamfer.sum_idx1]
  refine congrArg (fun s => Ideal.div s (Ideal.ofBits .f32 0x46000000#32)) (congrArg (_ + ·) ?_)
  refine Finset.sum_congr rfl fun n _ => ?_
  refine (Cert.LibMinReduce.hostColMin_apply (a := 2) (b := 8192) _ _ (by decide) _ n).trans ?_
  exact congrArg (Finset.univ : Finset (Fin 2)).inf (funext fun k => halves_apply a4 k n)

end Cert.KernelIdeal.Tail

end
-- ==== Proof.Result.lean ====
/-
  The device program's run, read: its result ends at the device's numerator divided by the number of rows, and its
  arguments end unchanged. The numerator is read off the two output arrays: the first is the clamped least distance
  per row of `Y`; rows 0 and 8 of the second are the clamped running minima of the two halves of `Y`.
-/
import proofs.«143313_j43052752175176_2_alg».proof.Proof.Arrays
import proofs.«143313_j43052752175176_2_alg».proof.Proof.TailRun
import proofs.«143313_j43052752175176_2_alg».proof.Proof.TailRead

set_option maxRecDepth 16384

noncomputable section

open scoped BigOperators

namespace Cert.KernelIdeal.Result

open Cert.KernelIdeal Cert.KernelIdeal.Gen Idealize.ShloMosaic Idealize.ShloMosaic.ValueIdx Idealize.ShloMosaic.TcCoe
open Idealize.SL.Sem Cert.Chamfer Cert.KernelIdeal.Accumulate
open Idealize.ShloMosaic.Pipeline (Dat)

variable (m : (ℓ : Loc nD τ sig) → Buf (Elt Ideal) ℓ) (ρ : Dev nD → PrngReg)

/-- The device program's result. -/
def value (c : Dev nD) : S_.Idx → EReal :=
  fun _ => Ideal.div (kernelNum (X m c) (Y m c) two) (Ideal.ofBits .f32 0x46000000#32)

theorem tail_value (c : Dev nD) :
    Pipeline.afterTail₀ cfgs (dats m) 0 (V0 m) [hostOps1] c main_v15 = value m c := by
  rw [Tail.tail_run, Arrays.final3, Arrays.final4]
  funext i
  rw [Tail.tail_apply]
  unfold value kernelNum
  refine congrArg (fun s => Ideal.div s (Ideal.ofBits .f32 0x46000000#32)) (congrArg₂ (· + ·) rfl ?_)
  refine Finset.sum_congr rfl fun n _ => congrArg (Finset.univ : Finset (Fin 2)).inf (funext fun k => ?_)
  show max (acc (X m c) (Y m c) two (16 * ((k.val * 8) / 8) + 15) n.val) 0 = _
  rw [Nat.mul_div_cancel _ (by norm_num : 0 < 8)]

/-- Every weakly fair execution of the device program terminates with its result at `value` and its arguments unchanged. -/
theorem run : θ_run defs (onTc (τ := τ) (main (F := Ideal))) ⟨m, fun _ => 0, ρ⟩ (fun r => ∀ c : Dev nD,
      r.2.mem ((c.tc : Thread nD τ).loc main_v15) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v15 (Pipeline.mem_restRefs_of main_v15 (by decide) (by decide))).trans (tail_value m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c)))⟩)
    (run_main m ρ)

end Cert.KernelIdeal.Result

end
-- ==== Proof.RefValue.lean ====
/-
  The reference program's result as a formula. Read one element at a time, the reference forms the squared lengths of
  the rows of both arrays, the matrix of inner products of rows of the first with rows of the second, from them the
  clamped squared distance of every pair of rows, the least distance down each column and along each row, and the sum
  over the row number of the two, divided by the number of rows: the reference numerator over that count.
-/
import proofs.«143313_j43052752175176_2_alg».proof.Proof.Gen.ReferenceIdeal.Read
import proofs.«143313_j43052752175176_2_alg».proof.Proof.Spec
import proofs.«143313_j43052752175176_2_alg».proof.Proof.Rows
import proofs.«143313_j43052752175176_2_alg».proof.Proof.LibMinReduce
import Idealize.ShloMosaic.Lib.ValueIdx
import Idealize.ShloMosaic.PureOps.Ideal.Laws
import Idealize.ShloMosaic.Lib.Pipeline.Value

noncomputable section

open scoped BigOperators

namespace Cert.Chamfer.Ref

open Cert.ReferenceIdeal Cert.ReferenceIdeal.Read Cert.ReferenceIdeal.Gen
open Idealize.ShloMosaic Idealize.ShloMosaic.ValueIdx

variable (x y : (⟨S8192x128, .f32⟩ : BufTy).Contents (Elt Ideal))

/-- The sum of squares along row `p` of the first array is that row's squared length. -/
theorem v1_apply (p : Fin 8192) : val_main_v1 (F := Ideal) x (ix1 p) = sq (rowsOf x) p.val := by
  rw [val_main_v1_apply, val_main_cst_apply, Ideal.ofBits_def, Ideal.ofBits_zero_f32, zero_add]
  unfold sq
  refine Finset.sum_congr rfl fun k _ => ?_
  have e : idx_main_v1 (ix1 p) k = ix2 p k :=
    funext fun a => Fin.ext (by match a with | ⟨0, _⟩ => rfl | ⟨1, _⟩ => rfl)
  rw [val_main_v0_apply, Ideal.mulf_def, e, rowsOf_apply x p.val p.isLt k]

/-- The sum of squares along row `q` of the second array is that row's squared length. -/
theorem v3_apply (q : Fin 8192) : val_main_v3 (F := Ideal) y (ix1 q) = sq (rowsOf y) q.val := by
  rw [val_main_v3_apply, val_main_cst_0_apply, Ideal.ofBits_def, Ideal.ofBits_zero_f32, zero_add]
  unfold sq
  refine Finset.sum_congr rfl fun k _ => ?_
  have e : idx_main_v3 (ix1 q) k = ix2 q k :=
    funext fun a => Fin.ext (by match a with | ⟨0, _⟩ => rfl | ⟨1, _⟩ => rfl)
  rw [val_main_v2_apply, Ideal.mulf_def, e, rowsOf_apply y q.val q.isLt k]

/-- The product of the first array with the transposed second, at `(p, q)`, is the inner product of row `p` of the
    first with row `q` of the second. -/
theorem v10_apply (p q : Fin 8192) :
    val_main_v10 (F := Ideal) x y (ix2 p q) = ∑ d : Fin 128, rowsOf x p.val d * rowsOf y q.val d := by
  rw [val_main_v10_apply]
  refine Finset.sum_congr rfl fun k _ => ?_
  have el : lidx_main_v10 (ix2 p q) k = ix2 p k :=
    funext fun a => Fin.ext (by match a with | ⟨0, _⟩ => rfl | ⟨1, _⟩ => rfl)
  have er : idx_main_v9 (ridx_main_v10 (ix2 p q) k) = ix2 q k :=
    funext fun a => Fin.ext (by match a with | ⟨0, _⟩ => rfl | ⟨1, _⟩ => rfl)
  rw [val_main_v9_apply, el, er, rowsOf_apply x p.val p.isLt k, rowsOf_apply y q.val q.isLt k]

/-- The clamped matrix at `(p, q)` is the reference distance between row `p` of the first array and row `q` of the
    second. -/
theorem v15_apply (p q : Fin 8192) :
    val_main_v15 (F := Ideal) x y (ix2 p q)
      = dR (rowsOf x) (rowsOf y) (Ideal.ofBits .f32 0x40000000#32) p.val q.val := by
  have e4 : idx_main_v4 (idx_main_v6 (ix2 p q)) = ix1 p :=
    funext fun a => Fin.ext (by match a with | ⟨0, _⟩ => rfl)
  have e5 : idx_main_v5 (idx_main_v7 (ix2 p q)) = ix1 q :=
    funext fun a => Fin.ext (by match a with | ⟨0, _⟩ => rfl)
  rw [val_main_v15_apply, val_main_v14_apply, val_main_cst_2_apply, val_main_v13_apply, val_main_v8_apply,
    val_main_v6_apply, val_main_v4_apply, e4, val_main_v7_apply, val_main_v5_apply, e5, val_main_v12_apply,
    val_main_v11_apply, val_main_cst_1_apply, v1_apply, v3_apply, v10_apply]
  simp only [Ideal.maximumf_def, Ideal.subf_def, Ideal.addf_def, Ideal.mulf_def, Ideal.ofBits_def,
    Ideal.ofBits_zero_f32]
  rfl

/-- The minimum down column `q` of the clamped matrix is the least reference distance to row `q` of the second array. -/
theorem v16_apply (q : Fin 8192) :
    val_main_v16 (F := Ideal) x y (ix1 q)
      = Finset.univ.inf fun i : Fin 8192 =>
          dR (rowsOf x) (rowsOf y) (Ideal.ofBits .f32 0x40000000#32) i.val q.val := by
  show Host.reduce FloatOps.minimumf (val_main_v15 (F := Ideal) x y) (constant (F := Ideal) S_ .f32 0x7F800000#32)
    reducesTo_S8192x8192_S8192_d0 h_S_ (ix1 q) = _
  refine (Cert.LibMinReduce.hostColMin_apply (a := 8192) (b := 8192) (val_main_v15 (F := Ideal) x y)
    reducesTo_S8192x8192_S8192_d0 (by decide) h_S_ q).trans ?_
  exact Finset.inf_congr rfl fun k _ => v15_apply x y k q

/-- The minimum along row `p` of the clamped matrix is the least reference distance from row `p` of the first array. -/
theorem v17_apply (p : Fin 8192) :
    val_main_v17 (F := Ideal) x y (ix1 p)
      = Finset.univ.inf fun j : Fin 8192 =>
          dR (rowsOf x) (rowsOf y) (Ideal.ofBits .f32 0x40000000#32) p.val j.val := by
  show Host.reduce FloatOps.minimumf (val_main_v15 (F := Ideal) x y) (constant (F := Ideal) S_ .f32 0x7F800000#32)
    reducesTo_S8192x8192_S8192_d1 h_S_ (ix1 p) = _
  refine (Cert.LibMinReduce.hostRowMin_apply (a := 8192) (b := 8192) (val_main_v15 (F := Ideal) x y)
    reducesTo_S8192x8192_S8192_d1 (by decide) h_S_ p).trans ?_
  exact Finset.inf_congr rfl fun k _ => v15_apply x y p k

/-- The total of the two minima over the row number is the reference numerator. -/
theorem v19_apply (i : S_.Idx) :
    val_main_v19 (F := Ideal) x y i = refNum (rowsOf x) (rowsOf y) (Ideal.ofBits .f32 0x40000000#32) := by
  rw [val_main_v19_apply, val_main_cst_5_apply, Ideal.ofBits_def, Ideal.ofBits_zero_f32, zero_add]
  refine (sum_idx1 (n := 8192) (val_main_v18 (F := Ideal) x y)).trans ?_
  unfold refNum
  refine Finset.sum_congr rfl fun k _ => ?_
  rw [val_main_v18_apply, Ideal.addf_def, v16_apply, v17_apply]

/-- The reference's result: its numerator divided by the number of rows. -/
theorem ref_value :
    val_main_v20 (F := Ideal) x y = fun _ => Ideal.div
      (Cert.Chamfer.refNum (Cert.Chamfer.rowsOf x) (Cert.Chamfer.rowsOf y) (Ideal.ofBits .f32 0x40000000#32))
      (Ideal.ofBits .f32 0x46000000#32) := by
  funext i
  rw [val_main_v20_apply, v19_apply, val_main_cst_6_apply, Ideal.hostDivf_def, Ideal.ofBits_def]

end Cert.Chamfer.Ref

end
-- ==== Proof.Laws.lean ====
/-
  The device's numerator and the reference's numerator are the same extended real, for every pair of arrays and every
  nonnegative finite doubling constant. The device walks the rows of `Y` in 32 blocks of 256 and keeps, per row of `X`,
  a running minimum that restarts after sixteen blocks; the reference takes each minimum over all 8192 rows at once and
  clamps every distance before taking minima, where the device clamps after.
-/
import proofs.«143313_j43052752175176_2_alg».proof.Proof.Spec

noncomputable section

open scoped BigOperators

namespace Cert.Chamfer

variable (X Y : ℕ → Fin 128 → EReal) (two : EReal)

/-- A nonnegative finite factor moves inside a finite sum of extended reals. -/
theorem mul_sum_of_nonneg_of_ne_top {ι : Type} (s : Finset ι) (a : ι → EReal) (h0 : 0 ≤ two) (ht : two ≠ ⊤) :
    two * ∑ i ∈ s, a i = ∑ i ∈ s, two * a i := by
  classical
  induction s using Finset.induction_on with
  | empty => simp
  | insert i s hi ih =>
    rw [Finset.sum_insert hi, Finset.sum_insert hi, EReal.left_distrib_of_nonneg_of_ne_top h0 ht, ih]

/-- The device's distance is the reference's unclamped distance with the two rows exchanged: the squared lengths
    commute, and the doubling factor comes out of each product and then out of the sum. -/
theorem dK_eq (h0 : 0 ≤ two) (ht : two ≠ ⊤) (m n : ℕ) :
    dK X Y two m n = (sq X n + sq Y m) - two * ∑ d : Fin 128, X n d * Y m d := by
  unfold dK
  rw [add_comm (sq Y m) (sq X n), mul_sum_of_nonneg_of_ne_top two Finset.univ _ h0 ht]
  congr 1
  refine Finset.sum_congr rfl fun d _ => ?_
  rw [mul_left_comm, mul_comm (Y m d)]

/-- Clamped, the device's distance from row `m` of `Y` to row `n` of `X` is the reference's distance. -/
theorem max_dK_eq_dR (h0 : 0 ≤ two) (ht : two ≠ ⊤) (m n : ℕ) :
    max (dK X Y two m n) 0 = dR X Y two n m := by
  rw [dK_eq X Y two h0 ht]; rfl

/-- Clamping below commutes with a finite infimum (the empty infimum is the top element on both sides). -/
theorem max_inf_eq {ι : Type} (s : Finset ι) (f : ι → EReal) (a : EReal) :
    max (s.inf f) a = s.inf fun i => max (f i) a :=
  Finset.inf_sup_distrib_right s f a

/-- The running minimum after block `t` is the least block minimum since the last restart. -/
theorem acc_eq (t n : ℕ) :
    acc X Y two t n = (Finset.Icc (16 * (t / 16)) t).inf fun b => blockMin X Y two b n := by
  induction t with
  | zero => simp [acc]
  | succ t ih =>
    rw [acc]
    split_ifs with h
    · have h1 : 16 * ((t + 1) / 16) = t + 1 := by omega
      rw [h1, Finset.Icc_self, Finset.inf_singleton]
    · have h1 : (t + 1) / 16 = t / 16 := by omega
      have h2 : Finset.Icc (16 * (t / 16)) (t + 1) = insert (t + 1) (Finset.Icc (16 * (t / 16)) t) := by
        ext b; simp only [Finset.mem_Icc, Finset.mem_insert]; omega
      rw [h1, h2, Finset.inf_insert, ih]
      exact inf_comm _ _

/-- At the end of each half the running minimum is the least block minimum of that half's sixteen blocks. -/
theorem acc_half (c : Fin 2) (n : ℕ) :
    acc X Y two (16 * c.val + 15) n
      = (Finset.Icc (16 * c.val) (16 * c.val + 15)).inf fun b => blockMin X Y two b n := by
  rw [acc_eq]
  have h1 : 16 * ((16 * c.val + 15) / 16) = 16 * c.val := by omega
  rw [h1]

/-- The lesser of the two halves' running minima is the least distance over all 8192 rows of `Y`: row `m` sits in
    half `m / 4096`, block `m / 256`, at place `m % 256`; and every place of every block of either half is a row. -/
theorem inf_acc_eq (n : ℕ) :
    (Finset.univ.inf fun c : Fin 2 => acc X Y two (16 * c.val + 15) n)
      = Finset.univ.inf fun m : Fin 8192 => dK X Y two m.val n := by
  apply le_antisymm
  · refine Finset.le_inf fun m _ => ?_
    have hm := m.isLt
    have hc : m.val / 4096 < 2 := by omega
    have hp : m.val % 256 < 256 := Nat.mod_lt _ (by norm_num)
    have hb : m.val / 256 ∈ Finset.Icc (16 * (m.val / 4096)) (16 * (m.val / 4096) + 15) := by
      rw [Finset.mem_Icc]; omega
    have e1 : (Finset.univ.inf fun c : Fin 2 => acc X Y two (16 * c.val + 15) n)
        ≤ acc X Y two (16 * (m.val / 4096) + 15) n :=
      Finset.inf_le (s := Finset.univ) (f := fun c : Fin 2 => acc X Y two (16 * c.val + 15) n)
        (b := (⟨m.val / 4096, hc⟩ : Fin 2)) (Finset.mem_univ _)
    have e2 : acc X Y two (16 * (m.val / 4096) + 15) n
        = (Finset.Icc (16 * (m.val / 4096)) (16 * (m.val / 4096) + 15)).inf fun b => blockMin X Y two b n :=
      acc_half X Y two ⟨m.val / 4096, hc⟩ n
    have e3 : ((Finset.Icc (16 * (m.val / 4096)) (16 * (m.val / 4096) + 15)).inf fun b => blockMin X Y two b n)
        ≤ blockMin X Y two (m.val / 256) n :=
      Finset.inf_le (s := Finset.Icc (16 * (m.val / 4096)) (16 * (m.val / 4096) + 15))
        (f := fun b => blockMin X Y two b n) (b := m.val / 256) hb
    have e4 : blockMin X Y two (m.val / 256) n ≤ dK X Y two (256 * (m.val / 256) + m.val % 256) n :=
      Finset.inf_le (s := Finset.univ) (f := fun p : Fin 256 => dK X Y two (256 * (m.val / 256) + p.val) n)
        (b := (⟨m.val % 256, hp⟩ : Fin 256)) (Finset.mem_univ _)
    have e5 : 256 * (m.val / 256) + m.val % 256 = m.val := Nat.div_add_mod _ _
    rw [e5] at e4
    exact e1.trans (e2.le.trans (e3.trans e4))
  · refine Finset.le_inf fun c _ => ?_
    rw [acc_half]
    refine Finset.le_inf fun b hb => ?_
    unfold blockMin
    refine Finset.le_inf fun p _ => ?_
    have hc := c.isLt
    have hp := p.isLt
    rw [Finset.mem_Icc] at hb
    have hlt : 256 * b + p.val < 8192 := by omega
    exact Finset.inf_le (s := Finset.univ) (f := fun m : Fin 8192 => dK X Y two m.val n)
      (b := (⟨256 * b + p.val, hlt⟩ : Fin 8192)) (Finset.mem_univ _)

/-- The device's clamped least distance from row `m` of `Y` is the reference's least distance down column `m`. -/
theorem rowMin_eq (h0 : 0 ≤ two) (ht : two ≠ ⊤) (m : ℕ) :
    rowMin X Y two m = Finset.univ.inf fun i : Fin 8192 => dR X Y two i.val m := by
  unfold rowMin
  rw [max_inf_eq]
  exact Finset.inf_congr rfl fun i _ => max_dK_eq_dR X Y two h0 ht m i.val

/-- The lesser of the two clamped running minima for row `n` of `X` is the reference's least distance along row
    `n`. -/
theorem inf_max_acc_eq (h0 : 0 ≤ two) (ht : two ≠ ⊤) (n : ℕ) :
    (Finset.univ.inf fun c : Fin 2 => max (acc X Y two (16 * c.val + 15) n) 0)
      = Finset.univ.inf fun j : Fin 8192 => dR X Y two n j.val := by
  rw [← max_inf_eq Finset.univ (fun c : Fin 2 => acc X Y two (16 * c.val + 15) n) 0, inf_acc_eq, max_inf_eq]
  exact Finset.inf_congr rfl fun j _ => max_dK_eq_dR X Y two h0 ht j.val n

/-- The two numerators agree. -/
theorem kernelNum_eq_refNum (h0 : 0 ≤ two) (ht : two ≠ ⊤) : kernelNum X Y two = refNum X Y two := by
  have e1 : ∑ m : Fin 8192, rowMin X Y two m.val
      = ∑ k : Fin 8192, Finset.univ.inf fun i : Fin 8192 => dR X Y two i.val k.val :=
    Finset.sum_congr rfl fun m _ => rowMin_eq X Y two h0 ht m.val
  have e2 : (∑ n : Fin 8192, Finset.univ.inf fun c : Fin 2 => max (acc X Y two (16 * c.val + 15) n.val) 0)
      = ∑ k : Fin 8192, Finset.univ.inf fun j : Fin 8192 => dR X Y two k.val j.val :=
    Finset.sum_congr rfl fun n _ => inf_max_acc_eq X Y two h0 ht n.val
  unfold kernelNum refNum
  rw [Finset.sum_add_distrib, e1, e2]

end Cert.Chamfer

end
-- ==== Proof.TwoFacts.lean ====
/-
  The doubling constant of both programs is the f32 word of the real number two: sign bit clear, exponent field 128,
  fraction field zero, so its value is 2^23 * 2^(128 - 127 - 23) = 2. In particular it is nonnegative and finite.
-/
import Idealize.ShloMosaic.PureOps.Ideal.Laws
import Mathlib

noncomputable section

namespace Cert.Chamfer

open Idealize.ShloMosaic

/-- The word `0x40000000` read as an f32 is the real number two. -/
theorem ofBits_two : Ideal.ofBits .f32 0x40000000#32 = ((2 : ℝ) : EReal) := by
  have e1 : ((0x40000000#32 : BitVec 32).extractLsb' 31 1 == 1#1) = false := by decide
  have e2 : ((0x40000000#32 : BitVec 32).extractLsb' 23 8).toNat = 128 := by decide
  have e3 : ((0x40000000#32 : BitVec 32).extractLsb' 0 23).toNat = 0 := by decide
  show Ideal.ieee 8 23 (0x40000000#32 : BitVec 32) = _
  unfold Ideal.ieee
  simp only [e1, e2, e3]
  norm_num

/-- Two is nonnegative. -/
theorem two_nonneg : (0 : EReal) ≤ Ideal.ofBits .f32 0x40000000#32 := by
  rw [ofBits_two]; exact_mod_cast (by norm_num : (0 : ℝ) ≤ 2)

/-- Two is finite. -/
theorem two_ne_top : Ideal.ofBits .f32 0x40000000#32 ≠ (⊤ : EReal) := by
  rw [ofBits_two]; exact EReal.coe_ne_top _

end Cert.Chamfer

end
-- ==== Proof.lean ====
/-
  The claim: the device program and the reference compute the same number from the same two arrays of 8192 rows.

  Both take, for every pair of a row of `X` and a row of `Y`, the squared distance |x|² + |y|² − 2 x·y; the device
  spells the last term as the inner product of y with the doubled x, which is the same extended real because a
  nonnegative finite factor distributes over a sum. The reference clamps every distance at zero and then takes the
  least along each row and each column; the device takes the least first — block of rows by block of rows, keeping a
  running minimum that restarts for each half of `Y` — and clamps afterwards, which is the same because clamping
  below commutes with an infimum, and an infimum over blocks of an infimum within the block is the infimum over all
  rows. Both then add the two families of least distances and divide by the number of rows. No finiteness of the
  inputs is used.

  The device side is read off the program's run (what each grid point leaves in its buffers, the running minimum by
  induction over the points, the blocks put together into the two output arrays, the operations after the region); the
  reference side is read off its run one operation at a time.
-/
import proofs.«143313_j43052752175176_2_alg».proof.Defs
import proofs.«143313_j43052752175176_2_alg».proof.Proof.Gen.Kernel
import proofs.«143313_j43052752175176_2_alg».proof.Proof.Gen.Kernel.Frame
import proofs.«143313_j43052752175176_2_alg».proof.Proof.Gen.KernelIdeal
import proofs.«143313_j43052752175176_2_alg».proof.Proof.Gen.KernelIdeal.Frame
import proofs.«143313_j43052752175176_2_alg».proof.Proof.Gen.ReferenceIdeal
import proofs.«143313_j43052752175176_2_alg».proof.Proof.Gen.Pre_finite_inputs
import proofs.«143313_j43052752175176_2_alg».proof.Proof.Gen.ReferenceIdeal.Run
import proofs.«143313_j43052752175176_2_alg».proof.Proof.Gen.ReferenceIdeal.Read
import proofs.«143313_j43052752175176_2_alg».proof.Proof.Result
import proofs.«143313_j43052752175176_2_alg».proof.Proof.RefValue
import proofs.«143313_j43052752175176_2_alg».proof.Proof.Laws
import proofs.«143313_j43052752175176_2_alg».proof.Proof.TwoFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the two arguments, both programs end at the common numerator divided by the number of
    rows. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Chamfer.Ref.ref_value, (hagree c).1, (hagree c).2]
  show _ = Cert.KernelIdeal.Result.value m c
  unfold Cert.KernelIdeal.Result.value
  rw [Cert.Chamfer.kernelNum_eq_refNum _ _ _ Cert.Chamfer.two_nonneg Cert.Chamfer.two_ne_top]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
